-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64x1x138 : Shape := ⟨3, ![64, 1, 138]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64x1x138 : S_.BroadcastsInDim S64x1x138 (![] : Fin 0 → Fin S64x1x138.rank)
  reducesTo_S64x1x138_S_d0_1_2 : S64x1x138.ReducesTo [0, 1, 2] S_

variable [Facts]

def fn {F : FTy → Type} [FloatOps F] (main_arg0 : FVec F S64x3x256x256 .f32) (main_arg1 : FVec F S64x3x256x256 .f32) (main_arg2 : FVec F S64x1x138 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x3x256x256 .f32 := Host.absf main_arg1
  let main_cst_0 : FVec F S_ .f32 := constant S_ .f32 0x7F800000#32
  let main_v5 : FVec F S64x3x256x256 .f32 := broadcastInDim S64x3x256x256 ![] bcast_S_S64x3x256x256 main_cst_0
  let main_v6 : IVec S64x3x256x256 1 := cmpf .olt main_v4 main_v5
  let main_c_1 : IVec S_ 1 := constantI S_ 1 1#1
  let main_v7 : IVec S_ 1 := (fun x v => Host.reduce IntOp.andi x v reducesTo_S64x3x256x256_S_d0_1_2_3 h_S_) main_v6 main_c_1
  let main_v8 : IVec S_ 1 := andi main_v3 main_v7
  let main_v9 : FVec F S64x1x138 .f32 := Host.absf main_arg2
  let main_cst_2 : FVec F S_ .f32 := constant S_ .f32 0x7F800000#32
  let main_v10 : FVec F S64x1x138 .f32 := broadcastInDim S64x1x138 ![] bcast_S_S64x1x138 main_cst_2
  let main_v11 : IVec S64x1x138 1 := cmpf .olt main_v9 main_v10
  let main_c_3 : IVec S_ 1 := constantI S_ 1 1#1
  let main_v12 : IVec S_ 1 := (fun x v => Host.reduce IntOp.andi x v reducesTo_S64x1x138_S_d0_1_2 h_S_) main_v11 main_c_3
  let main_v13 : IVec S_ 1 := andi main_v8 main_v12
  main_v13
-- ==== Kernel.lean ====
abbrev S64x3x256x256 : Shape := ⟨4, ![64, 3, 256, 256]⟩
abbrev S64x1x138 : Shape := ⟨3, ![64, 1, 138]⟩
abbrev S2 : Shape := ⟨1, ![2]⟩
abbrev S64x1x68 : Shape := ⟨3, ![64, 1, 68]⟩
abbrev S64x68 : Shape := ⟨2, ![64, 68]⟩
abbrev S_ : Shape := ⟨0, ![]⟩
abbrev S64x68x1x1 : Shape := ⟨4, ![64, 68, 1, 1]⟩
abbrev S1x1x2x1 : Shape := ⟨4, ![1, 1, 2, 1]⟩
abbrev S64x68x2x1 : Shape := ⟨4, ![64, 68, 2, 1]⟩
abbrev S1x1x1x2 : Shape := ⟨4, ![1, 1, 1, 2]⟩
abbrev S64x68x1x2 : Shape := ⟨4, ![64, 68, 1, 2]⟩
abbrev S64 : Shape := ⟨1, ![64]⟩
abbrev S64x1x1x1 : Shape := ⟨4, ![64, 1, 1, 1]⟩
abbrev S64x256x256 : Shape := ⟨3, ![64, 256, 256]⟩
abbrev S64x68x2x2 : Shape := ⟨4, ![64, 68, 2, 2]⟩
abbrev S64x68x2x2x1 : Shape := ⟨5, ![64, 68, 2, 2, 1]⟩
abbrev S64x68x2x2x3 : Shape := ⟨5, ![64, 68, 2, 2, 3]⟩
abbrev S1x1 : Shape := ⟨2, ![1, 1]⟩
abbrev S8x3x256x256 : Shape := ⟨4, ![8, 3, 256, 256]⟩
abbrev S8x256x256 : Shape := ⟨3, ![8, 256, 256]⟩
abbrev S8x1x256x256 : Shape := ⟨4, ![8, 1, 256, 256]⟩
abbrev S1x8x3x256x256 : Shape := ⟨5, ![1, 8, 3, 256, 256]⟩
abbrev S1 : Shape := ⟨1, ![1]⟩
abbrev S1x1x1x1x1 : Shape := ⟨5, ![1, 1, 1, 1, 1]⟩

abbrev nBuf : Space → Nat
  | .hbm => 76
  | .vmem => 7
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64x1x138, .f32⟩
  | .hbm, ⟨3, _⟩ => ⟨S2, .i32⟩
  | .hbm, ⟨4, _⟩ => ⟨S64x1x68, .f32⟩
  | .hbm, ⟨5, _⟩ => ⟨S64x68, .f32⟩
  | .hbm, ⟨6, _⟩ => ⟨S64x68, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64x68, .i32⟩
  | .hbm, ⟨11, _⟩ => ⟨S64x68, .i32⟩
  | .hbm, ⟨12, _⟩ => ⟨S_, .i32⟩
  | .hbm, ⟨13, _⟩ => ⟨S64x68, .i32⟩
  | .hbm, ⟨14, _⟩ => ⟨S64x68, .i32⟩
  | .hbm, ⟨15, _⟩ => ⟨S64x1x68, .f32⟩
  | .hbm, ⟨16, _⟩ => ⟨S64x68, .f32⟩
  | .hbm, ⟨17, _⟩ => ⟨S64x68, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S64x68, .i32⟩
  | .hbm, ⟨22, _⟩ => ⟨S64x68, .i32⟩
  | .hbm, ⟨23, _⟩ => ⟨S_, .i32⟩
  | .hbm, ⟨24, _⟩ => ⟨S64x68, .i32⟩
  | .hbm, ⟨25, _⟩ => ⟨S64x68, .i32⟩
  | .hbm, ⟨26, _⟩ => ⟨S64x68x1x1, .i32⟩
  | .hbm, ⟨27, _⟩ => ⟨S1x1x2x1, .i32⟩
  | .hbm, ⟨28, _⟩ => ⟨S64x68x2x1, .i32⟩
  | .hbm, ⟨29, _⟩ => ⟨S64x68x2x1, .i32⟩
  | .hbm, ⟨30, _⟩ => ⟨S64x68x2x1, .i32⟩
  | .hbm, ⟨31, _⟩ => ⟨S64x68x1x1, .i32⟩
  | .hbm, ⟨32, _⟩ => ⟨S1x1x1x2, .i32⟩
  | .hbm, ⟨33, _⟩ => ⟨S64x68x1x2, .i32⟩
  | .hbm, ⟨34, _⟩ => ⟨S64x68x1x2, .i32⟩
  | .hbm, ⟨35, _⟩ => ⟨S64x68x1x2, .i32⟩
  | .hbm, ⟨36, _⟩ => ⟨S64, .i32⟩
  | .hbm, ⟨37, _⟩ => ⟨S64x1x1x1, .i32⟩
  | .hbm, ⟨38, _⟩ => ⟨S_, .i1⟩
  | .hbm, ⟨39, _⟩ => ⟨S64x256x256, .i1⟩
  | .hbm, ⟨40, _⟩ => ⟨S_, .i32⟩
  | .hbm, ⟨41, _⟩ => ⟨S64x1x1x1, .i32⟩
  | .hbm, ⟨42, _⟩ => ⟨S64x1x1x1, .i1⟩
  | .hbm, ⟨43, _⟩ => ⟨S_, .i32⟩
  | .hbm, ⟨44, _⟩ => ⟨S64x1x1x1, .i32⟩
  | .hbm, ⟨45, _⟩ => ⟨S64x1x1x1, .i32⟩
  | .hbm, ⟨46, _⟩ => ⟨S64x1x1x1, .i32⟩
  | .hbm, ⟨47, _⟩ => ⟨S_, .i32⟩
  | .hbm, ⟨48, _⟩ => ⟨S64x68x2x1, .i32⟩
  | .hbm, ⟨49, _⟩ => ⟨S64x68x2x1, .i1⟩
  | .hbm, ⟨50, _⟩ => ⟨S_, .i32⟩
  | .hbm, ⟨51, _⟩ => ⟨S64x68x2x1, .i32⟩
  | .hbm, ⟨52, _⟩ => ⟨S64x68x2x1, .i32⟩
  | .hbm, ⟨53, _⟩ => ⟨S64x68x2x1, .i32⟩
  | .hbm, ⟨54, _⟩ => ⟨S_, .i32⟩
  | .hbm, ⟨55, _⟩ => ⟨S64x68x1x2, .i32⟩
  | .hbm, ⟨56, _⟩ => ⟨S64x68x1x2, .i1⟩
  | .hbm, ⟨57, _⟩ => ⟨S_, .i32⟩
  | .hbm, ⟨58, _⟩ => ⟨S64x68x1x2, .i32⟩
  | .hbm, ⟨59, _⟩ => ⟨S64x68x1x2, .i32⟩
  | .hbm, ⟨60, _⟩ => ⟨S64x68x1x2, .i32⟩
  | .hbm, ⟨61, _⟩ => ⟨S64x68x2x2, .i32⟩
  | .hbm, ⟨62, _⟩ => ⟨S64x68x2x2, .i32⟩
  | .hbm, ⟨63, _⟩ => ⟨S64x68x2x2, .i32⟩
  | .hbm, ⟨64, _⟩ => ⟨S64x68x2x2x1, .i32⟩
  | .hbm, ⟨65, _⟩ => ⟨S64x68x2x2x1, .i32⟩
  | .hbm, ⟨66, _⟩ => ⟨S64x68x2x2x1, .i32⟩
  | .hbm, ⟨67, _⟩ => ⟨S64x68x2x2x3, .i32⟩
  | .hbm, ⟨68, _⟩ => ⟨S_, .i1⟩
  | .hbm, ⟨69, _⟩ => ⟨S64x68x2x2, .i1⟩
  | .hbm, ⟨70, _⟩ => ⟨S64x256x256, .i1⟩
  | .hbm, ⟨71, _⟩ => ⟨S64x256x256, .f32⟩
  | .hbm, ⟨72, _⟩ => ⟨S1x1, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S8x3x256x256, .f32⟩
  | .local _ .vmem, ⟨1, _⟩ => ⟨S8x3x256x256, .f32⟩
  | .local _ .vmem, ⟨2, _⟩ => ⟨S8x3x256x256, .f32⟩
  | .local _ .vmem, ⟨3, _⟩ => ⟨S8x3x256x256, .f32⟩
  | .local _ .vmem, ⟨4, _⟩ => ⟨S8x256x256, .f32⟩
  | .local _ .vmem, ⟨5, _⟩ => ⟨S8x256x256, .f32⟩
  | .local _ .vmem, ⟨6, _⟩ => ⟨S1x1, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S64x1x138_S64x1x68_0_0_2 : S64x1x138.Slices ![0, 0, 2] S64x1x68
  shapeCasts_S64x1x68_S64x68 : S64x1x68.ShapeCasts S64x68
  bcast_S_S64x68 : S_.BroadcastsInDim S64x68 (![] : Fin 0 → Fin S64x68.rank)
  slices_S64x1x138_S64x1x68_0_0_70 : S64x1x138.Slices ![0, 0, 70] S64x1x68
  bcast_S64x68_S64x68x1x1_0_1 : S64x68.BroadcastsInDim S64x68x1x1 (![0, 1] : Fin 2 → Fin S64x68x1x1.rank)
  bcast_S2_S1x1x2x1_2 : S2.BroadcastsInDim S1x1x2x1 (![2] : Fin 1 → Fin S1x1x2x1.rank)
  bcast_S64x68x1x1_S64x68x2x1_0_1_2_3 : S64x68x1x1.BroadcastsInDim S64x68x2x1 (![0, 1, 2, 3] : Fin 4 → Fin S64x68x2x1.rank)
  bcast_S1x1x2x1_S64x68x2x1_0_1_2_3 : S1x1x2x1.BroadcastsInDim S64x68x2x1 (![0, 1, 2, 3] : Fin 4 → Fin S64x68x2x1.rank)
  bcast_S2_S1x1x1x2_3 : S2.BroadcastsInDim S1x1x1x2 (![3] : Fin 1 → Fin S1x1x1x2.rank)
  bcast_S64x68x1x1_S64x68x1x2_0_1_2_3 : S64x68x1x1.BroadcastsInDim S64x68x1x2 (![0, 1, 2, 3] : Fin 4 → Fin S64x68x1x2.rank)
  bcast_S1x1x1x2_S64x68x1x2_0_1_2_3 : S1x1x1x2.BroadcastsInDim S64x68x1x2 (![0, 1, 2, 3] : Fin 4 → Fin S64x68x1x2.rank)
  bcast_S64_S64x1x1x1_0 : S64.BroadcastsInDim S64x1x1x1 (![0] : Fin 1 → Fin S64x1x1x1.rank)
  bcast_S_S64x256x256 : S_.BroadcastsInDim S64x256x256 (![] : Fin 0 → Fin S64x256x256.rank)
  bcast_S_S64x1x1x1 : S_.BroadcastsInDim S64x1x1x1 (![] : Fin 0 → Fin S64x1x1x1.rank)
  bcast_S_S64x68x2x1 : S_.BroadcastsInDim S64x68x2x1 (![] : Fin 0 → Fin S64x68x2x1.rank)
  bcast_S_S64x68x1x2 : S_.BroadcastsInDim S64x68x1x2 (![] : Fin 0 → Fin S64x68x1x2.rank)
  bcast_S64x1x1x1_S64x68x2x2_0_1_2_3 : S64x1x1x1.BroadcastsInDim S64x68x2x2 (![0, 1, 2, 3] : Fin 4 → Fin S64x68x2x2.rank)
  bcast_S64x68x2x1_S64x68x2x2_0_1_2_3 : S64x68x2x1.BroadcastsInDim S64x68x2x2 (![0, 1, 2, 3] : Fin 4 → Fin S64x68x2x2.rank)
  bcast_S64x68x1x2_S64x68x2x2_0_1_2_3 : S64x68x1x2.BroadcastsInDim S64x68x2x2 (![0, 1, 2, 3] : Fin 4 → Fin S64x68x2x2.rank)
  bcast_S64x68x2x2_S64x68x2x2x1_0_1_2_3 : S64x68x2x2.BroadcastsInDim S64x68x2x2x1 (![0, 1, 2, 3] : Fin 4 → Fin S64x68x2x2x1.rank)
  concatenates_S64x68x2x2x1_S64x68x2x2x1_S64x68x2x2x1_S64x68x2x2x3_d4 : Shape.Concatenates [S64x68x2x2x1, S64x68x2x2x1, S64x68x2x2x1] S64x68x2x2x3 4
  bcast_S_S64x68x2x2 : S_.BroadcastsInDim S64x68x2x2 (![] : Fin 0 → Fin S64x68x2x2.rank)
  inb_S1x1_S1x1_0_0 : ∀ a, (![0, 0] : Fin 2 → Nat) a + S1x1.size a ≤ S1x1.size a
  h_S1x1 : 0 < S1x1.numel
  inb_S8x3x256x256_S8x3x256x256_0_0_0_0 : ∀ a, (![0, 0, 0, 0] : Fin 4 → Nat) a + S8x3x256x256.size a ≤ S8x3x256x256.size a
  h_S8x3x256x256 : 0 < S8x3x256x256.numel
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  shapeCasts_S8x256x256_S8x1x256x256 : S8x256x256.ShapeCasts S8x1x256x256
  broadcasts_S8x1x256x256_S8x3x256x256 : S8x1x256x256.Broadcasts S8x3x256x256
  shapeCasts_S8x3x256x256_S1x8x3x256x256 : S8x3x256x256.ShapeCasts S1x8x3x256x256
  reduces_S1x8x3x256x256_S1 : S1x8x3x256x256.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1_S1x1 : S1x1.ShapeCasts S1x1
  shapeCasts_S1x1_S_ : S1x1.ShapeCasts S_
  scatter_S64x256x256_S64x68x2x2x3_S64x68x2x2_n_012_012_4_wf : ScatterDims.WF S64x256x256 S64x68x2x2x3 S64x68x2x2 [] [0, 1, 2] [0, 1, 2] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256x256.size a ≤ S64x3x256x256.size a
  hwx0_0 : ∀ i : grid0.Coords, EltTy.bits .f32 = 32 ∨ (Rect.block (s := S64x3x256x256) S8x3x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x256x256.size a ≤ S64x3x256x256.size a
  hwx0_1 : ∀ i : grid0.Coords, EltTy.bits .f32 = 32 ∨ (Rect.block (s := S64x3x256x256) S8x3x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S64x256x256.size a
  hwx0_2 : ∀ i : grid0.Coords, EltTy.bits .f32 = 32 ∨ (Rect.block (s := S64x256x256) S8x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S64x256x256_S64x68x2x2x3_S64x68x2x2_n_012_012_4 : ScatterDims S64x256x256 S64x68x2x2x3 S64x68x2x2 where
  updateWindowDims := []
  insertedWindowDims := [0, 1, 2]
  scatterDimsToOperandDims := [0, 1, 2]
  indexVectorDim := 4
  wf := scatter_S64x256x256_S64x68x2x2x3_S64x68x2x2_n_012_012_4_wf

abbrev win0_0 : Pipeline.Window sig grid0 :=
  Pipeline.Window.ofSpec (Memref.whole main_arg0) S8x3x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x256x256 : Shape := ⟨4, ![64, 3, 256, 256]⟩
abbrev S64x1x138 : Shape := ⟨3, ![64, 1, 138]⟩
abbrev S2 : Shape := ⟨1, ![2]⟩
abbrev S64x1x68 : Shape := ⟨3, ![64, 1, 68]⟩
abbrev S64x68 : Shape := ⟨2, ![64, 68]⟩
abbrev S_ : Shape := ⟨0, ![]⟩
abbrev S64x68x1x1 : Shape := ⟨4, ![64, 68, 1, 1]⟩
abbrev S1x1x2x1 : Shape := ⟨4, ![1, 1, 2, 1]⟩
abbrev S64x68x2x1 : Shape := ⟨4, ![64, 68, 2, 1]⟩
abbrev S1x1x1x2 : Shape := ⟨4, ![1, 1, 1, 2]⟩
abbrev S64x68x1x2 : Shape := ⟨4, ![64, 68, 1, 2]⟩
abbrev S64 : Shape := ⟨1, ![64]⟩
abbrev S64x1x1x1 : Shape := ⟨4, ![64, 1, 1, 1]⟩
abbrev S64x256x256 : Shape := ⟨3, ![64, 256, 256]⟩
abbrev S64x68x2x2 : Shape := ⟨4, ![64, 68, 2, 2]⟩
abbrev S64x68x2x2x1 : Shape := ⟨5, ![64, 68, 2, 2, 1]⟩
abbrev S64x68x2x2x3 : Shape := ⟨5, ![64, 68, 2, 2, 3]⟩
abbrev S64x1x256x256 : Shape := ⟨4, ![64, 1, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64x1x138, .f32⟩
  | .hbm, ⟨3, _⟩ => ⟨S2, .i32⟩
  | .hbm, ⟨4, _⟩ => ⟨S64x1x68, .f32⟩
  | .hbm, ⟨5, _⟩ => ⟨S64x68, .f32⟩
  | .hbm, ⟨6, _⟩ => ⟨S64x68, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64x68, .i32⟩
  | .hbm, ⟨11, _⟩ => ⟨S64x68, .i32⟩
  | .hbm, ⟨12, _⟩ => ⟨S_, .i32⟩
  | .hbm, ⟨13, _⟩ => ⟨S64x68, .i32⟩
  | .hbm, ⟨14, _⟩ => ⟨S64x68, .i32⟩
  | .hbm, ⟨15, _⟩ => ⟨S64x1x68, .f32⟩
  | .hbm, ⟨16, _⟩ => ⟨S64x68, .f32⟩
  | .hbm, ⟨17, _⟩ => ⟨S64x68, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S64x68, .i32⟩
  | .hbm, ⟨22, _⟩ => ⟨S64x68, .i32⟩
  | .hbm, ⟨23, _⟩ => ⟨S_, .i32⟩
  | .hbm, ⟨24, _⟩ => ⟨S64x68, .i32⟩
  | .hbm, ⟨25, _⟩ => ⟨S64x68, .i32⟩
  | .hbm, ⟨26, _⟩ => ⟨S64x68x1x1, .i32⟩
  | .hbm, ⟨27, _⟩ => ⟨S1x1x2x1, .i32⟩
  | .hbm, ⟨28, _⟩ => ⟨S64x68x2x1, .i32⟩
  | .hbm, ⟨29, _⟩ => ⟨S64x68x2x1, .i32⟩
  | .hbm, ⟨30, _⟩ => ⟨S64x68x2x1, .i32⟩
  | .hbm, ⟨31, _⟩ => ⟨S64x68x1x1, .i32⟩
  | .hbm, ⟨32, _⟩ => ⟨S1x1x1x2, .i32⟩
  | .hbm, ⟨33, _⟩ => ⟨S64x68x1x2, .i32⟩
  | .hbm, ⟨34, _⟩ => ⟨S64x68x1x2, .i32⟩
  | .hbm, ⟨35, _⟩ => ⟨S64x68x1x2, .i32⟩
  | .hbm, ⟨36, _⟩ => ⟨S64, .i32⟩
  | .hbm, ⟨37, _⟩ => ⟨S64x1x1x1, .i32⟩
  | .hbm, ⟨38, _⟩ => ⟨S_, .i1⟩
  | .hbm, ⟨39, _⟩ => ⟨S64x256x256, .i1⟩
  | .hbm, ⟨40, _⟩ => ⟨S_, .i32⟩
  | .hbm, ⟨41, _⟩ => ⟨S64x1x1x1, .i32⟩
  | .hbm, ⟨42, _⟩ => ⟨S64x1x1x1, .i1⟩
  | .hbm, ⟨43, _⟩ => ⟨S_, .i32⟩
  | .hbm, ⟨44, _⟩ => ⟨S64x1x1x1, .i32⟩
  | .hbm, ⟨45, _⟩ => ⟨S64x1x1x1, .i32⟩
  | .hbm, ⟨46, _⟩ => ⟨S64x1x1x1, .i32⟩
  | .hbm, ⟨47, _⟩ => ⟨S_, .i32⟩
  | .hbm, ⟨48, _⟩ => ⟨S64x68x2x1, .i32⟩
  | .hbm, ⟨49, _⟩ => ⟨S64x68x2x1, .i1⟩
  | .hbm, ⟨50, _⟩ => ⟨S_, .i32⟩
  | .hbm, ⟨51, _⟩ => ⟨S64x68x2x1, .i32⟩
  | .hbm, ⟨52, _⟩ => ⟨S64x68x2x1, .i32⟩
  | .hbm, ⟨53, _⟩ => ⟨S64x68x2x1, .i32⟩
  | .hbm, ⟨54, _⟩ => ⟨S_, .i32⟩
  | .hbm, ⟨55, _⟩ => ⟨S64x68x1x2, .i32⟩
  | .hbm, ⟨56, _⟩ => ⟨S64x68x1x2, .i1⟩
  | .hbm, ⟨57, _⟩ => ⟨S_, .i32⟩
  | .hbm, ⟨58, _⟩ => ⟨S64x68x1x2, .i32⟩
  | .hbm, ⟨59, _⟩ => ⟨S64x68x1x2, .i32⟩
  | .hbm, ⟨60, _⟩ => ⟨S64x68x1x2, .i32⟩
  | .hbm, ⟨61, _⟩ => ⟨S64x68x2x2, .i32⟩
  | .hbm, ⟨62, _⟩ => ⟨S64x68x2x2, .i32⟩
  | .hbm, ⟨63, _⟩ => ⟨S64x68x2x2, .i32⟩
  | .hbm, ⟨64, _⟩ => ⟨S64x68x2x2x1, .i32⟩
  | .hbm, ⟨65, _⟩ => ⟨S64x68x2x2x1, .i32⟩
  | .hbm, ⟨66, _⟩ => ⟨S64x68x2x2x1, .i32⟩
  | .hbm, ⟨67, _⟩ => ⟨S64x68x2x2x3, .i32⟩
  | .hbm, ⟨68, _⟩ => ⟨S_, .i1⟩
  | .hbm, ⟨69, _⟩ => ⟨S64x68x2x2, .i1⟩
  | .hbm, ⟨70, _⟩ => ⟨S64x256x256, .i1⟩
  | .hbm, ⟨71, _⟩ => ⟨S64x1x256x256, .i1⟩
  | .hbm, ⟨72, _⟩ => ⟨S_, .f32⟩
  | .hbm, ⟨73, _⟩ => ⟨S64x3x256x256, .i1⟩
  | .hbm, ⟨74, _⟩ => ⟨S64x3x256x256, .f32⟩
  | .hbm, ⟨75, _⟩ => ⟨S64x3x256x256, .f32⟩
  | .hbm, ⟨76, _⟩ => ⟨S_, .f32⟩
  | .hbm, ⟨77, _⟩ => ⟨S64x3x256x256, .i1⟩
  | .hbm, ⟨78, _⟩ => ⟨S64x3x256x256, .f32⟩
  | .hbm, ⟨79, _⟩ => ⟨S64x3x256x256, .f32⟩
  | .hbm, ⟨80, _⟩ => ⟨S64x3x256x256, .f32⟩
  | .hbm, ⟨81, _⟩ => ⟨S64x3x256x256, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_13 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  slices_S64x1x138_S64x1x68_0_0_2 : S64x1x138.Slices ![0, 0, 2] S64x1x68
  shapeCasts_S64x1x68_S64x68 : S64x1x68.ShapeCasts S64x68
  bcast_S_S64x68 : S_.BroadcastsInDim S64x68 (![] : Fin 0 → Fin S64x68.rank)
  slices_S64x1x138_S64x1x68_0_0_70 : S64x1x138.Slices ![0, 0, 70] S64x1x68
  bcast_S64x68_S64x68x1x1_0_1 : S64x68.BroadcastsInDim S64x68x1x1 (![0, 1] : Fin 2 → Fin S64x68x1x1.rank)
  bcast_S2_S1x1x2x1_2 : S2.BroadcastsInDim S1x1x2x1 (![2] : Fin 1 → Fin S1x1x2x1.rank)
  bcast_S64x68x1x1_S64x68x2x1_0_1_2_3 : S64x68x1x1.BroadcastsInDim S64x68x2x1 (![0, 1, 2, 3] : Fin 4 → Fin S64x68x2x1.rank)
  bcast_S1x1x2x1_S64x68x2x1_0_1_2_3 : S1x1x2x1.BroadcastsInDim S64x68x2x1 (![0, 1, 2, 3] : Fin 4 → Fin S64x68x2x1.rank)
  bcast_S2_S1x1x1x2_3 : S2.BroadcastsInDim S1x1x1x2 (![3] : Fin 1 → Fin S1x1x1x2.rank)
  bcast_S64x68x1x1_S64x68x1x2_0_1_2_3 : S64x68x1x1.BroadcastsInDim S64x68x1x2 (![0, 1, 2, 3] : Fin 4 → Fin S64x68x1x2.rank)
  bcast_S1x1x1x2_S64x68x1x2_0_1_2_3 : S1x1x1x2.BroadcastsInDim S64x68x1x2 (![0, 1, 2, 3] : Fin 4 → Fin S64x68x1x2.rank)
  bcast_S64_S64x1x1x1_0 : S64.BroadcastsInDim S64x1x1x1 (![0] : Fin 1 → Fin S64x1x1x1.rank)
  bcast_S_S64x256x256 : S_.BroadcastsInDim S64x256x256 (![] : Fin 0 → Fin S64x256x256.rank)
  bcast_S_S64x1x1x1 : S_.BroadcastsInDim S64x1x1x1 (![] : Fin 0 → Fin S64x1x1x1.rank)
  bcast_S_S64x68x2x1 : S_.BroadcastsInDim S64x68x2x1 (![] : Fin 0 → Fin S64x68x2x1.rank)
  bcast_S_S64x68x1x2 : S_.BroadcastsInDim S64x68x1x2 (![] : Fin 0 → Fin S64x68x1x2.rank)
  bcast_S64x1x1x1_S64x68x2x2_0_1_2_3 : S64x1x1x1.BroadcastsInDim S64x68x2x2 (![0, 1, 2, 3] : Fin 4 → Fin S64x68x2x2.rank)
  bcast_S64x68x2x1_S64x68x2x2_0_1_2_3 : S64x68x2x1.BroadcastsInDim S64x68x2x2 (![0, 1, 2, 3] : Fin 4 → Fin S64x68x2x2.rank)
  bcast_S64x68x1x2_S64x68x2x2_0_1_2_3 : S64x68x1x2.BroadcastsInDim S64x68x2x2 (![0, 1, 2, 3] : Fin 4 → Fin S64x68x2x2.rank)
  bcast_S64x68x2x2_S64x68x2x2x1_0_1_2_3 : S64x68x2x2.BroadcastsInDim S64x68x2x2x1 (![0, 1, 2, 3] : Fin 4 → Fin S64x68x2x2x1.rank)
  concatenates_S64x68x2x2x1_S64x68x2x2x1_S64x68x2x2x1_S64x68x2x2x3_d4 : Shape.Concatenates [S64x68x2x2x1, S64x68x2x2x1, S64x68x2x2x1] S64x68x2x2x3 4
  bcast_S_S64x68x2x2 : S_.BroadcastsInDim S64x68x2x2 (![] : Fin 0 → Fin S64x68x2x2.rank)
  bcast_S64x256x256_S64x1x256x256_0_2_3 : S64x256x256.BroadcastsInDim S64x1x256x256 (![0, 2, 3] : Fin 3 → Fin S64x1x256x256.rank)
  bcast_S64x1x256x256_S64x3x256x256_0_1_2_3 : S64x1x256x256.BroadcastsInDim S64x3x256x256 (![0, 1, 2, 3] : Fin 4 → Fin S64x3x256x256.rank)
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  scatter_S64x256x256_S64x68x2x2x3_S64x68x2x2_n_012_012_4_wf : ScatterDims.WF S64x256x256 S64x68x2x2x3 S64x68x2x2 [] [0, 1, 2] [0, 1, 2] 4

variable [Facts₀]

def scatter_S64x256x256_S64x68x2x2x3_S64x68x2x2_n_012_012_4 : ScatterDims S64x256x256 S64x68x2x2x3 S64x68x2x2 where
  updateWindowDims := []
  insertedWindowDims := [0, 1, 2]
  scatterDimsToOperandDims := [0, 1, 2]
  indexVectorDim := 4
  wf := scatter_S64x256x256_S64x68x2x2x3_S64x68x2x2_n_012_012_4_wf

class Facts : Prop extends Facts₀ where

variable [Facts]
-- ==== Proof.KernelIdeal.Entry.lean ====
/-
  What the kernel region finds when it is entered, and @main around it.

  @main is five stretches of host operations (they build the landmark mask from the third argument and turn it
  into an f32 array), then the one kernel region over a grid of eight points, then three host operations (the
  1x1 result read as a scalar and divided by the element count). The region's three input windows stage the two
  image arrays and the f32 mask, eight leading rows per point; its output window is one 1x1 block whose index
  never moves, written back after the last point only.

  Stated here: the buffers' contents at the region's entry (the host prefix applied to the launch contents), that
  @main is "prefix, region, suffix", that the suffix touches only what it may, each window's block at a point as
  a function of those entry contents, and that an input window's staging buffer holds that block at every point.
-/
import proofs.«169952_j75771813036236_1_alg».proof.Proof.Gen.KernelIdeal.Launch
import proofs.«169952_j75771813036236_1_alg».proof.Proof.Gen.KernelIdeal.Skeleton
import proofs.«169952_j75771813036236_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) := [hostOps0, hostOps0_1, hostOps0_2, hostOps0_3, hostOps0_4]

/-- Core `c`'s buffer contents when the region is entered: the host prefix applied to the launch contents. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the three operations after it, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is
    the entry contents and whose body leaves the block in place: the window is fetched at every point, is never
    idle and never clipped. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional (the accumulator's reset), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of the output window, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S8x3x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.KernelIdeal.Acc

end
-- ==== Proof.Kernel.Entry.lean ====
/-
  What the kernel region finds when it is entered, and @main around it.

  @main is five stretches of host operations (they build the landmark mask from the third argument and turn it
  into an f32 array), then the one kernel region over a grid of eight points, then three host operations (the
  1x1 result read as a scalar and divided by the element count). The region's three input windows stage the two
  image arrays and the f32 mask, eight leading rows per point; its output window is one 1x1 block whose index
  never moves, written back after the last point only.

  Stated here: the buffers' contents at the region's entry (the host prefix applied to the launch contents), that
  @main is "prefix, region, suffix", that the suffix touches only what it may, each window's block at a point as
  a function of those entry contents, and that an input window's staging buffer holds that block at every point.
-/
import proofs.«169952_j75771813036236_1_alg».proof.Proof.Gen.Kernel.Launch
import proofs.«169952_j75771813036236_1_alg».proof.Proof.Gen.Kernel.Skeleton
import proofs.«169952_j75771813036236_1_alg».proof.Proof.Gen.Kernel.Points
import proofs.«169952_j75771813036236_1_alg».proof.Proof.KernelIdeal.Entry
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev preOps : List (List (HloOp τ sig (Elt F))) := [hostOps0, hostOps0_1, hostOps0_2, hostOps0_3, hostOps0_4]

/-- Core `c`'s buffer contents when the region is entered: the host prefix applied to the launch contents. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub⟩

theorem preOps_fresh : (preOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main reduces to the region continued by the three operations after it, the buffers at `V` when it is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is
    the entry contents and whose body leaves the block in place: the window is fetched at every point, is never
    idle and never clipped. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one conditional (the accumulator's reset), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- One staging buffer of the output window, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S8x3x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x3x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.Kernel.Acc

end
-- ==== Proof.KernelIdeal.FirstPoint.lean ====
/-
  The kernel body at the grid's FIRST point, where the accumulator is reset.

  On whole staging buffers — the three inputs' at their blocks, the output's at anything — the body stores the
  zero block into the 1x1 accumulator, loads the two image blocks and the mask block, reads the accumulator back
  (the zero block it has just stored), adds the block's masked sum of absolute differences and stores the result.
  The inputs' buffers are handed back as they were; what the output's buffer ends with is the list of the two
  stores' pieces, found by running the body symbolically.
-/
import proofs.«169952_j75771813036236_1_alg».proof.Proof.KernelIdeal.Entry

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer at the first point, with the proof that the
    body runs to its continuation holding the inputs' buffers unchanged and the output's with those pieces written. -/
noncomputable def kernelRun0_A (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__masked_l1_sum_kernel i arg1 harg1 arg2 harg2 arg3 harg3 arg4 harg4) K } := by
  refine ⟨?_, fun E K => ?run⟩
  case run =>
    simp only [cc0__masked_l1_sum_kernel_eq_skeleton]; unfold cc0__masked_l1_sum_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Acc

end
-- ==== Proof.Kernel.FirstPoint.lean ====
/-
  The kernel body at the grid's FIRST point, where the accumulator is reset.

  On whole staging buffers — the three inputs' at their blocks, the output's at anything — the body stores the
  zero block into the 1x1 accumulator, loads the two image blocks and the mask block, reads the accumulator back
  (the zero block it has just stored), adds the block's masked sum of absolute differences and stores the result.
  The inputs' buffers are handed back as they were; what the output's buffer ends with is the list of the two
  stores' pieces, found by running the body symbolically.
-/
import proofs.«169952_j75771813036236_1_alg».proof.Proof.Kernel.Entry
import proofs.«169952_j75771813036236_1_alg».proof.Proof.KernelIdeal.FirstPoint

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer at the first point, with the proof that the
    body runs to its continuation holding the inputs' buffers unchanged and the output's with those pieces written. -/
noncomputable def kernelRun0_A (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__masked_l1_sum_kernel i arg1 harg1 arg2 harg2 arg3 harg3 arg4 harg4) K } := by
  refine ⟨?_, fun E K => ?run⟩
  case run =>
    simp only [cc0__masked_l1_sum_kernel_eq_skeleton]; unfold cc0__masked_l1_sum_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Acc

end
-- ==== Proof.KernelIdeal.LaterPoints.lean ====
/-
  The kernel body at every LATER point of the grid, where the accumulator is carried.

  On whole staging buffers — the three inputs' at their blocks, the output's at the running value the point
  before left — the body loads the two image blocks and the mask block, reads the accumulator, adds the block's
  masked sum of absolute differences and stores the result: one store, covering the 1x1 block.
-/
import proofs.«169952_j75771813036236_1_alg».proof.Proof.KernelIdeal.FirstPoint

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging buffer at a later point, with the proof that the
    body runs to its continuation holding the inputs' buffers unchanged and the output's with that piece written. -/
noncomputable def kernelRun0_B (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__masked_l1_sum_kernel i arg1 harg1 arg2 harg2 arg3 harg3 arg4 harg4) K } := by
  refine ⟨?_, fun E K => ?run⟩
  case run =>
    simp only [cc0__masked_l1_sum_kernel_eq_skeleton]; unfold cc0__masked_l1_sum_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Acc

end
-- ==== Proof.Kernel.LaterPoints.lean ====
/-
  The kernel body at every LATER point of the grid, where the accumulator is carried.

  On whole staging buffers — the three inputs' at their blocks, the output's at the running value the point
  before left — the body loads the two image blocks and the mask block, reads the accumulator, adds the block's
  masked sum of absolute differences and stores the result: one store, covering the 1x1 block.
-/
import proofs.«169952_j75771813036236_1_alg».proof.Proof.Kernel.FirstPoint
import proofs.«169952_j75771813036236_1_alg».proof.Proof.KernelIdeal.LaterPoints

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging buffer at a later point, with the proof that the
    body runs to its continuation holding the inputs' buffers unchanged and the output's with that piece written. -/
noncomputable def kernelRun0_B (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__masked_l1_sum_kernel i arg1 harg1 arg2 harg2 arg3 harg3 arg4 harg4) K } := by
  refine ⟨?_, fun E K => ?run⟩
  case run =>
    simp only [cc0__masked_l1_sum_kernel_eq_skeleton]; unfold cc0__masked_l1_sum_kernel_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Acc

end
-- ==== Proof.KernelIdeal.Accumulation.lean ====
/-
  The accumulation over the grid, and the run of @main.

  What the 1x1 output's staging buffer holds after the body at each point is defined by recursion on the point:
  at the first point what the reset-and-add leaves, at a later point what the add leaves over the value the point
  before left (the buffer is written back after the last point only, so between two points it keeps its contents).
  With the inputs' buffers at their blocks this is the pipeline's proof data; the body's two runs give the body
  obligation at every point; the launch theorem for "host operations, one region, host operations" then says that
  every weakly fair execution of @main terminates, each array of the pipeline at what the proof data computes and
  every other unscoped buffer at what the three operations after the region leave.
-/
import proofs.«169952_j75771813036236_1_alg».proof.Proof.KernelIdeal.LaterPoints

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's two stores tile the 1x1 block, so their pieces cover it. -/
theorem cover0_A_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) (y : S1x1.Idx) :
    ∃ pc ∈ (kernelRun0_A c i arg1 harg1 arg2 harg2 arg3 harg3 arg4 harg4 hc0 x0 x1 x2).1, y ∈ pc.1.set :=
  View.cover_of_tiledL (kernelRun0_A c i arg1 harg1 arg2 harg2 arg3 harg3 arg4 harg4 hc0 x0 x1 x2).1 S1x1.size (by sl_kernel_rfl) y

/-- What the first point leaves in the output's staging buffer: its pieces read back. -/
def out0_A_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) : Vec F S1x1 .f32 :=
  VO0_3.read (Elt F) (VO0_3.writes (Elt F) VO0_3.junk (kernelRun0_A c i arg1 harg1 arg2 harg2 arg3 harg3 arg4 harg4 hc0 x0 x1 x2).1)

/-- A later point's one store covers the 1x1 block. -/
theorem cover0_B_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) (y : S1x1.Idx) :
    ∃ pc ∈ (kernelRun0_B c i arg1 harg1 arg2 harg2 arg3 harg3 arg4 harg4 hc0 x0 x1 x2 xo3).1, y ∈ pc.1.set :=
  View.cover_of_tiledL (kernelRun0_B c i arg1 harg1 arg2 harg2 arg3 harg3 arg4 harg4 hc0 x0 x1 x2 xo3).1 S1x1.size (by sl_kernel_rfl) y

/-- What a later point leaves in the output's staging buffer that held `xo3`: its piece read back. -/
def out0_B_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) : Vec F S1x1 .f32 :=
  VO0_3.read (Elt F) (VO0_3.writes (Elt F) VO0_3.junk (kernelRun0_B c i arg1 harg1 arg2 harg2 arg3 harg3 arg4 harg4 hc0 x0 x1 x2 xo3).1)

/-! ## What the output holds after each point -/

/-- THE ACCUMULATION: the output's staging buffer after the body at position `n`. -/
def outsAt0 (c : Dev nD) : (n : ℕ) → n < cfg0.N → Vec F S1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At the first point: what the reset-and-add leaves. -/
theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point: what the add leaves over what the point before left. -/
theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at the accumulation; the class's invariant (the scoped
    rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the output's staging buffer holds what the body left at the point before: the buffer is not
    written back between the two, and the window is live and uncut. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' buffers hold their blocks; the point is the first or a later one; at a
    later one the output's buffer holds what the point before left; so the matching run applies, the invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 8 := lt_of_lt_of_eq t.isLt (show cfg0.N = 8 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- At the compiled mesh, for any values, from any memory with zero counters: every weakly fair execution of @main
    terminates, and every final state has each array of the pipeline at what the proof data computes and every
    other unscoped buffer at what the three operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Acc

end
-- ==== Proof.Kernel.Accumulation.lean ====
/-
  The accumulation over the grid, and the run of @main.

  What the 1x1 output's staging buffer holds after the body at each point is defined by recursion on the point:
  at the first point what the reset-and-add leaves, at a later point what the add leaves over the value the point
  before left (the buffer is written back after the last point only, so between two points it keeps its contents).
  With the inputs' buffers at their blocks this is the pipeline's proof data; the body's two runs give the body
  obligation at every point; the launch theorem for "host operations, one region, host operations" then says that
  every weakly fair execution of @main terminates, each array of the pipeline at what the proof data computes and
  every other unscoped buffer at what the three operations after the region leave.
-/
import proofs.«169952_j75771813036236_1_alg».proof.Proof.Kernel.LaterPoints
import proofs.«169952_j75771813036236_1_alg».proof.Proof.KernelIdeal.Accumulation

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's two stores tile the 1x1 block, so their pieces cover it. -/
theorem cover0_A_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) (y : S1x1.Idx) :
    ∃ pc ∈ (kernelRun0_A c i arg1 harg1 arg2 harg2 arg3 harg3 arg4 harg4 hc0 x0 x1 x2).1, y ∈ pc.1.set :=
  View.cover_of_tiledL (kernelRun0_A c i arg1 harg1 arg2 harg2 arg3 harg3 arg4 harg4 hc0 x0 x1 x2).1 S1x1.size (by sl_kernel_rfl) y

/-- What the first point leaves in the output's staging buffer: its pieces read back. -/
def out0_A_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : cond0_0 i)
    (x0 : Vec F S8x3x256x256 .f32) (x1 : Vec F S8x3x256x256 .f32) (x2 : Vec F S8x256x256 .f32) : Vec F S1x1 .f32 :=
  VO0_3.read (Elt F) (VO0_3.writes (Elt F) VO0_3.junk (kernelRun0_A c i arg1 harg1 arg2 harg2 arg3 harg3 arg4 harg4 hc0 x0 x1 x2).1)

/-- A later point's one store covers the 1x1 block. -/
theorem cover0_B_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) (y : S1x1.Idx) :
    ∃ pc ∈ (kernelRun0_B c i arg1 harg1 arg2 harg2 arg3 harg3 arg4 harg4 hc0 x0 x1 x2 xo3).1, y ∈ pc.1.set :=
  View.cover_of_tiledL (kernelRun0_B c i arg1 harg1 arg2 harg2 arg3 harg3 arg4 harg4 hc0 x0 x1 x2 xo3).1 S1x1.size (by sl_kernel_rfl) y

/-- What a later point leaves in the output's staging buffer that held `xo3`: its piece read back. -/
def out0_B_3 (c : Dev nD) (i : grid0.Coords) (arg1 : Memref sig .tc .vmem S8x3x256x256 .f32) (harg1 : arg1.IsWhole) (arg2 : Memref sig .tc .vmem S8x3x256x256 .f32) (harg2 : arg2.IsWhole) (arg3 : Memref sig .tc .vmem S8x256x256 .f32) (harg3 : arg3.IsWhole) (arg4 : Memref sig .tc .vmem S1x1 .f32) (harg4 : arg4.IsWhole) (hc0 : ¬cond0_0 i)
    (x0 : Vec F S8x3x256x256 .f32) (x1 : Vec F S8x3x256x256 .f32) (x2 : Vec F S8x256x256 .f32) (xo3 : Vec F S1x1 .f32) : Vec F S1x1 .f32 :=
  VO0_3.read (Elt F) (VO0_3.writes (Elt F) VO0_3.junk (kernelRun0_B c i arg1 harg1 arg2 harg2 arg3 harg3 arg4 harg4 hc0 x0 x1 x2 xo3).1)

/-! ## What the output holds after each point -/

/-- THE ACCUMULATION: the output's staging buffer after the body at position `n`. -/
def outsAt0 (c : Dev nD) : (n : ℕ) → n < cfg0.N → Vec F S1x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At the first point: what the reset-and-add leaves. -/
theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point: what the add leaves over what the point before left. -/
theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the output's at the accumulation; the class's invariant (the scoped
    rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the output's staging buffer holds what the body left at the point before: the buffer is not
    written back between the two, and the window is live and uncut. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' buffers hold their blocks; the point is the first or a later one; at a
    later one the output's buffer holds what the point before left; so the matching run applies, the invariant
    passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 8 := lt_of_lt_of_eq t.isLt (show cfg0.N = 8 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- At the compiled mesh, for any values, from any memory with zero counters: every weakly fair execution of @main
    terminates, and every final state has each array of the pipeline at what the proof data computes and every
    other unscoped buffer at what the three operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Acc

end
-- ==== Proof.KernelIdeal.Frame.lean ====
/-
  The frame: @main terminates, faults nowhere, and leaves its three argument arrays unchanged.

  The two image arrays are input windows of the pipeline: an input window's array ends at its region-entry
  contents, and no host operation before the region writes an argument, so those are the launch contents. The
  landmark array bypasses the region: it ends at what the three operations after the region leave of its
  region-entry contents, and none of them, and no operation before the region, writes it.
-/
import proofs.«169952_j75771813036236_1_alg».proof.Proof.KernelIdeal.Accumulation
import Idealize.ShloMosaic.Lib.StableHlo.Run

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The landmark array is no array of the pipeline and is not scoped: it bypasses the region. -/
theorem arg2_bypasses : main_arg2 ∈ Pipeline.restRefs sig spec0 :=
  Pipeline.mem_restRefs_of main_arg2 rfl (fun w => by fin_cases w <;> decide)

/-- After the three operations that follow the region the landmark array holds its launch contents. -/
theorem tail_arg2 (c : Dev nD) :
    Pipeline.afterTail₀ cfgs (dats m) 0 (V0 m) [hostOps1] c main_arg2 = m ((c : Thread nD τ).loc main_arg2) := by
  unfold Pipeline.afterTail₀
  show StableHlo.after hostOps1 _ (Proc.devRef .tc main_arg2) = _
  after_results
  rw [Pipeline.withArrays_of_ne spec0 c _ _ main_arg2 (fun w => by fin_cases w <;> decide)]
  exact V_main_arg2 m c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 arg2_bypasses).trans (tail_arg2 m c)⟩) (run_main m ρ)

end Cert.KernelIdeal.Acc

end
-- ==== Proof.Kernel.Frame.lean ====
/-
  The frame: @main terminates, faults nowhere, and leaves its three argument arrays unchanged.

  The two image arrays are input windows of the pipeline: an input window's array ends at its region-entry
  contents, and no host operation before the region writes an argument, so those are the launch contents. The
  landmark array bypasses the region: it ends at what the three operations after the region leave of its
  region-entry contents, and none of them, and no operation before the region, writes it.
-/
import proofs.«169952_j75771813036236_1_alg».proof.Proof.Kernel.Accumulation
import proofs.«169952_j75771813036236_1_alg».proof.Proof.KernelIdeal.Frame
import Idealize.ShloMosaic.Lib.StableHlo.Run

set_option maxRecDepth 16384

noncomputable section

namespace Cert.Kernel.Acc

open Cert.Kernel Cert.Kernel.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The landmark array is no array of the pipeline and is not scoped: it bypasses the region. -/
theorem arg2_bypasses : main_arg2 ∈ Pipeline.restRefs sig spec0 :=
  Pipeline.mem_restRefs_of main_arg2 rfl (fun w => by fin_cases w <;> decide)

/-- After the three operations that follow the region the landmark array holds its launch contents. -/
theorem tail_arg2 (c : Dev nD) :
    Pipeline.afterTail₀ cfgs (dats m) 0 (V0 m) [hostOps1] c main_arg2 = m ((c : Thread nD τ).loc main_arg2) := by
  unfold Pipeline.afterTail₀
  show StableHlo.after hostOps1 _ (Proc.devRef .tc main_arg2) = _
  after_results
  rw [Pipeline.withArrays_of_ne spec0 c _ _ main_arg2 (fun w => by fin_cases w <;> decide)]
  exact V_main_arg2 m c

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 arg2_bypasses).trans (tail_arg2 m c)⟩) (run_main m ρ)

end Cert.Kernel.Acc

end
-- ==== Proof.KernelIdeal.Value.lean ====
/-
  What the kernel's run computes, as pure terms of the region-entry contents.

  The body's arithmetic is one pure term of its four loads (the generated payload `k0_pay2`: the accumulator read
  plus the block's sum of |x0 - x1| times the mask block broadcast over the channel axis); the reset stores the
  zero block `k0_pay1`. Read back through the covering stores, the first point leaves `k0_pay2 b0 b1 b2 k0_pay1`
  and a later point `k0_pay2 b0 b1 b2 acc` over the value `acc` the point before left, so by induction on the
  point the accumulation is the ordered chain of the eight blocks' contributions. The one write-back, after the
  last point, writes the whole 1x1 array, so the result array ends at the chain's last value; the three host
  operations after the region then read it as a scalar and divide it by the constant.
-/
import proofs.«169952_j75771813036236_1_alg».proof.Proof.KernelIdeal.Frame
import Idealize.ShloMosaic.Lib.Pipeline.Value
import Idealize.ShloMosaic.Lib.StableHlo.Run

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A LATER point's value: over the accumulator's contents `xo` the body leaves the payload of its four loads. -/
theorem out_B (c : Dev nD) (i : grid0.Coords) (a1 : Memref sig .tc .vmem S8x3x256x256 .f32) (h1 : a1.IsWhole) (a2 : Memref sig .tc .vmem S8x3x256x256 .f32) (h2 : a2.IsWhole) (a3 : Memref sig .tc .vmem S8x256x256 .f32) (h3 : a3.IsWhole) (a4 : Memref sig .tc .vmem S1x1 .f32) (h4 : a4.IsWhole) (hc : ¬cond0_0 i)
    (x0 x1 : Vec F S8x3x256x256 .f32) (x2 : Vec F S8x256x256 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz2]
  simp only [View.readAt_eq_ld, h1.read_unread, h2.read_unread, h3.read_unread, h4.read_unread,
    View.ld_unit_zero (S := S8x3x256x256) hz4, View.ld_unit_zero (S := S8x256x256) hz3, View.ld_unit_zero (S := S1x1) hz2]

/-- The FIRST point's value: the body stores the zero block, reads it back, and leaves the payload over it. -/
theorem out_A (c : Dev nD) (i : grid0.Coords) (a1 : Memref sig .tc .vmem S8x3x256x256 .f32) (h1 : a1.IsWhole) (a2 : Memref sig .tc .vmem S8x3x256x256 .f32) (h2 : a2.IsWhole) (a3 : Memref sig .tc .vmem S8x256x256 .f32) (h3 : a3.IsWhole) (a4 : Memref sig .tc .vmem S1x1 .f32) (h4 : a4.IsWhole) (hc : cond0_0 i)
    (x0 x1 : Vec F S8x3x256x256 .f32) (x2 : Vec F S8x256x256 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S8x3x256x256) hz4, View.ld_unit_zero (S := S8x256x256) hz3, View.ld_unit_zero (S := S1x1) hz2]

/-- The ORDERED running value after point `n`: the payload over the zero block at the first point, then over the
    value before at each later point. -/
def chain (c : Dev nD) : (n : ℕ) → n < cfg0.N → Vec F S1x1 .f32
  | 0, h => k0_pay2 (iblk m c 0 ⟨0, h⟩) (iblk m c 1 ⟨0, h⟩) (iblk m c 2 ⟨0, h⟩) (k0_pay1 (F := F))
  | n + 1, h => k0_pay2 (iblk m c 0 ⟨n + 1, h⟩) (iblk m c 1 ⟨n + 1, h⟩) (iblk m c 2 ⟨n + 1, h⟩) (chain c n (Nat.lt_of_succ_lt h))

/-- The accumulation IS the running value, by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 8 := N_0
    have hB : ¬(⟨n + 1, h⟩ : Fin cfg0.N).val % 8 = 0 := by dsimp only; omega
    rw [outsAt0_B m c ⟨n + 1, h⟩ hB, out_B]
    show k0_pay2 _ _ _ (outsAt0 m c n _) = k0_pay2 _ _ _ (chain m c n _)
    rw [outsAt_eq c n]

/-- The result: the running value after the last point, as contents of the 1x1 result array. -/
abbrev result (c : Dev nD) : Buf (Elt F) ((c : Thread nD τ).loc main_v46) := chain m c 7 (by rw [show cfg0.N = 8 from N_0]; decide)

/-- The one write-back, after point 7, writes it: block (0, 0) of the 1x1 array read through zero offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3, outsAt_eq]
  have hz' : (fun a => win0_3.index t0_7 a * main_v46.ty.shape.size a) = fun _ => 0 := funext fun a => by fin_cases a <;> decide
  exact (Memref.read_access_unit_zero (Elt F) main_v46 hz' (fun a => by rw [congrFun hz' a]; simp) (result m c)).symm

/-- So the result array ends holding the running value after the last point: that point's block covers it. -/
theorem final_o (c : Dev nD) : (dats m 0 c).arrAt 3 cfg0.N = result m c :=
  (dats m 0 c).arrAt_eq_of_cover 3 (result m c) (flushed_eq m c) fun i =>
    ⟨t0_7, (flush0_3 t0_7).mpr rfl, by
      show i ∈ ((View.whole main_v46).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-! ## The operations after the region -/

/-- The kernel's result: the running value after the last point, read as a scalar and divided by the element count
    (the constant 12582912 = 64 * 3 * 256 * 256, kept as its word). -/
def kernelOut (c : Dev nD) : Buf (Elt F) ((c : Thread nD τ).loc main_v48) :=
  Host.divf (shapeCast S_ (result m c) shapeCasts_S1x1_S_) (constant (F := F) S_ .f32 0x4B400000#32)

/-- The result buffer is no array of the pipeline and is not scoped: it bypasses the region. -/
theorem v48_bypasses : main_v48 ∈ Pipeline.restRefs sig spec0 :=
  Pipeline.mem_restRefs_of main_v48 rfl (fun w => by fin_cases w <;> decide)

/-- What the three operations after the region leave in the result buffer: they read the pipeline's result array,
    which the region left at the running value after the last point. -/
theorem tail_v48 (c : Dev nD) :
    Pipeline.afterTail₀ cfgs (dats m) 0 (V0 m) [hostOps1] c main_v48 = kernelOut m c := by
  unfold Pipeline.afterTail₀
  show StableHlo.after hostOps1 _ (Proc.devRef .tc main_v48) = _
  after_results
  have e := (Pipeline.withArrays_arr spec0 launch0.win.arr_inj c (V0 m c) (fun w => (dats m 0 c).arrAt w (cfgs 0).N) 3).trans (final_o m c)
  rw [show Pipeline.withArrays (cfgs 0).spec c (V0 m c) (fun w => (dats m 0 c).arrAt w (cfgs 0).N) (Proc.devRef .tc main_v46) = result m c from e]
  rfl

/-- THE RUN, read: the result at `kernelOut`, the three arguments unchanged. -/
theorem run : θ_run defs (onTc (τ := τ) (main (F := F))) ⟨m, fun _ => 0, ρ⟩ (fun r => ∀ c : Dev nD,
      r.2.mem ((c.tc : Thread nD τ).loc main_v48) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v48 v48_bypasses).trans (tail_v48 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 arg2_bypasses).trans (tail_arg2 m c)⟩) (run_main m ρ)

end Cert.KernelIdeal.Acc

end
-- ==== Proof.RefRun.lean ====
import proofs.«169952_j75771813036236_1_alg».proof.Proof.Gen.ReferenceIdeal
import Idealize.ShloMosaic.Lib.StableHlo.Run
import Idealize.ShloMosaic.Lib.Pipeline.Frame

/-! The run of the reference program read back as one pure term: the mean absolute difference of the two
    images, each kept under the landmark mask and set to 255 off it.  The mask is what the first stretch
    of operations leaves in its buffer; the result is stated over it as a variable. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations that build the landmark mask, in order, through the scatter: the two coordinate rows
    sliced out, truncated to integers and clipped to [1, 254] (each clipping's six operations listed where
    it is called); around each landmark the 2×2 patch of rows (y − 1, y) and columns (x − 1, x), a negative
    index wrapped once by the axis length; the three index arrays (sample, row, column) joined along a new
    last axis; `true` written at every such index into an all-`false` 64 × 256 × 256 array. -/
abbrev maskOps : List (HloOp τ sig (Elt F)) :=
  [ StableHlo.nullary main_c (fun i => lit0 (S2.rowMajor i)),
    StableHlo.unary main_arg2 main_v0 ((extractStridedSlice S64x1x68 ![0, 0, 2] · slices_S64x1x138_S64x1x68_0_0_2) : (⟨S64x1x138, .f32⟩ : BufTy).Contents (Elt F) → (⟨S64x1x68, .f32⟩ : BufTy).Contents (Elt F)),
    StableHlo.reshape main_v0 main_v1 rfl shapeCasts_S64x1x68_S64x68,
    StableHlo.unary main_v1 main_v2 (fptosi 32 : (⟨S64x68, .f32⟩ : BufTy).Contents (Elt F) → (⟨S64x68, .i32⟩ : BufTy).Contents (Elt F)),
    StableHlo.nullary main_c_0 (constantI S_ 32 1#32),
    StableHlo.nullary main_c_1 (constantI S_ 32 254#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S64x68, .i32⟩) (broadcastInDim S64x68 ![] bcast_S_S64x68),
    StableHlo.TRef.binary (.of main_call0_v1 : StableHlo.TRef sig ⟨S64x68, .i32⟩) (.of main_v2 : StableHlo.TRef sig ⟨S64x68, .i32⟩) (.of main_call0_v2 : StableHlo.TRef sig ⟨S64x68, .i32⟩) maxsi,
    StableHlo.TRef.unary (.of main_c_1 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S64x68, .i32⟩) (broadcastInDim S64x68 ![] bcast_S_S64x68),
    StableHlo.TRef.binary (.of main_call0_v4 : StableHlo.TRef sig ⟨S64x68, .i32⟩) (.of main_call0_v2 : StableHlo.TRef sig ⟨S64x68, .i32⟩) (.of main_v3 : StableHlo.TRef sig ⟨S64x68, .i32⟩) minsi,
    StableHlo.unary main_arg2 main_v4 ((extractStridedSlice S64x1x68 ![0, 0, 70] · slices_S64x1x138_S64x1x68_0_0_70) : (⟨S64x1x138, .f32⟩ : BufTy).Contents (Elt F) → (⟨S64x1x68, .f32⟩ : BufTy).Contents (Elt F)),
    StableHlo.reshape main_v4 main_v5 rfl shapeCasts_S64x1x68_S64x68,
    StableHlo.unary main_v5 main_v6 (fptosi 32 : (⟨S64x68, .f32⟩ : BufTy).Contents (Elt F) → (⟨S64x68, .i32⟩ : BufTy).Contents (Elt F)),
    StableHlo.nullary main_c_2 (constantI S_ 32 1#32),
    StableHlo.nullary main_c_3 (constantI S_ 32 254#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S64x68, .i32⟩) (broadcastInDim S64x68 ![] bcast_S_S64x68),
    StableHlo.TRef.binary (.of main_call1_v1 : StableHlo.TRef sig ⟨S64x68, .i32⟩) (.of main_v6 : StableHlo.TRef sig ⟨S64x68, .i32⟩) (.of main_call1_v2 : StableHlo.TRef sig ⟨S64x68, .i32⟩) maxsi,
    StableHlo.TRef.unary (.of main_c_3 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S64x68, .i32⟩) (broadcastInDim S64x68 ![] bcast_S_S64x68),
    StableHlo.TRef.binary (.of main_call1_v4 : StableHlo.TRef sig ⟨S64x68, .i32⟩) (.of main_call1_v2 : StableHlo.TRef sig ⟨S64x68, .i32⟩) (.of main_v7 : StableHlo.TRef sig ⟨S64x68, .i32⟩) minsi,
    StableHlo.unary main_v3 main_v8 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v9 (broadcastInDim S1x1x2x1 ![2] bcast_S2_S1x1x2x1_2 : (⟨S2, .i32⟩ : BufTy).Contents (Elt F) → (⟨S1x1x2x1, .i32⟩ : BufTy).Contents (Elt F)),
    StableHlo.unary main_v8 main_v10 (broadcastInDim S64x68x2x1 ![0, 1, 2, 3] bcast_S64x68x1x1_S64x68x2x1_0_1_2_3 : (⟨S64x68x1x1, .i32⟩ : BufTy).Contents (Elt F) → (⟨S64x68x2x1, .i32⟩ : BufTy).Contents (Elt F)),
    StableHlo.unary main_v9 main_v11 (broadcastInDim S64x68x2x1 ![0, 1, 2, 3] bcast_S1x1x2x1_S64x68x2x1_0_1_2_3 : (⟨S1x1x2x1, .i32⟩ : BufTy).Contents (Elt F) → (⟨S64x68x2x1, .i32⟩ : BufTy).Contents (Elt F)),
    StableHlo.binary main_v10 main_v11 main_v12 (addi : (⟨S64x68x2x1, .i32⟩ : BufTy).Contents (Elt F) → (⟨S64x68x2x1, .i32⟩ : BufTy).Contents (Elt F) → (⟨S64x68x2x1, .i32⟩ : BufTy).Contents (Elt F)),
    StableHlo.unary main_v7 main_v13 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v14 (broadcastInDim S1x1x1x2 ![3] bcast_S2_S1x1x1x2_3 : (⟨S2, .i32⟩ : BufTy).Contents (Elt F) → (⟨S1x1x1x2, .i32⟩ : BufTy).Contents (Elt F)),
    StableHlo.unary main_v13 main_v15 (broadcastInDim S64x68x1x2 ![0, 1, 2, 3] bcast_S64x68x1x1_S64x68x1x2_0_1_2_3 : (⟨S64x68x1x1, .i32⟩ : BufTy).Contents (Elt F) → (⟨S64x68x1x2, .i32⟩ : BufTy).Contents (Elt F)),
    StableHlo.unary main_v14 main_v16 (broadcastInDim S64x68x1x2 ![0, 1, 2, 3] bcast_S1x1x1x2_S64x68x1x2_0_1_2_3 : (⟨S1x1x1x2, .i32⟩ : BufTy).Contents (Elt F) → (⟨S64x68x1x2, .i32⟩ : BufTy).Contents (Elt F)),
    StableHlo.binary main_v15 main_v16 main_v17 (addi : (⟨S64x68x1x2, .i32⟩ : BufTy).Contents (Elt F) → (⟨S64x68x1x2, .i32⟩ : BufTy).Contents (Elt F) → (⟨S64x68x1x2, .i32⟩ : BufTy).Contents (Elt F)),
    StableHlo.nullary main_v18 (iotaInDim S64 32 0),
    StableHlo.unary main_v18 main_v19 (broadcastInDim S64x1x1x1 ![0] bcast_S64_S64x1x1x1_0 : (⟨S64, .i32⟩ : BufTy).Contents (Elt F) → (⟨S64x1x1x1, .i32⟩ : BufTy).Contents (Elt F)),
    StableHlo.nullary main_c_4 (constantI S_ 1 0#1),
    StableHlo.unary main_c_4 main_v20 (broadcastInDim S64x256x256 ![] bcast_S_S64x256x256 : (⟨S_, .i1⟩ : BufTy).Contents (Elt F) → (⟨S64x256x256, .i1⟩ : BufTy).Contents (Elt F)),
    StableHlo.nullary main_c_5 (constantI S_ 32 0#32),
    StableHlo.unary main_c_5 main_v21 (broadcastInDim S64x1x1x1 ![] bcast_S_S64x1x1x1 : (⟨S_, .i32⟩ : BufTy).Contents (Elt F) → (⟨S64x1x1x1, .i32⟩ : BufTy).Contents (Elt F)),
    StableHlo.binary main_v19 main_v21 main_v22 (cmpi .slt : (⟨S64x1x1x1, .i32⟩ : BufTy).Contents (Elt F) → (⟨S64x1x1x1, .i32⟩ : BufTy).Contents (Elt F) → (⟨S64x1x1x1, .i1⟩ : BufTy).Contents (Elt F)),
    StableHlo.nullary main_c_6 (constantI S_ 32 64#32),
    StableHlo.unary main_c_6 main_v23 (broadcastInDim S64x1x1x1 ![] bcast_S_S64x1x1x1 : (⟨S_, .i32⟩ : BufTy).Contents (Elt F) → (⟨S64x1x1x1, .i32⟩ : BufTy).Contents (Elt F)),
    StableHlo.binary main_v19 main_v23 main_v24 (addi : (⟨S64x1x1x1, .i32⟩ : BufTy).Contents (Elt F) → (⟨S64x1x1x1, .i32⟩ : BufTy).Contents (Elt F) → (⟨S64x1x1x1, .i32⟩ : BufTy).Contents (Elt F)),
    StableHlo.ternary main_v22 main_v24 main_v19 main_v25 (select : (⟨S64x1x1x1, .i1⟩ : BufTy).Contents (Elt F) → (⟨S64x1x1x1, .i32⟩ : BufTy).Contents (Elt F) → (⟨S64x1x1x1, .i32⟩ : BufTy).Contents (Elt F) → (⟨S64x1x1x1, .i32⟩ : BufTy).Contents (Elt F)),
    StableHlo.nullary main_c_7 (constantI S_ 32 0#32),
    StableHlo.unary main_c_7 main_v26 (broadcastInDim S64x68x2x1 ![] bcast_S_S64x68x2x1 : (⟨S_, .i32⟩ : BufTy).Contents (Elt F) → (⟨S64x68x2x1, .i32⟩ : BufTy).Contents (Elt F)),
    StableHlo.binary main_v12 main_v26 main_v27 (cmpi .slt : (⟨S64x68x2x1, .i32⟩ : BufTy).Contents (Elt F) → (⟨S64x68x2x1, .i32⟩ : BufTy).Contents (Elt F) → (⟨S64x68x2x1, .i1⟩ : BufTy).Contents (Elt F)),
    StableHlo.nullary main_c_8 (constantI S_ 32 256#32),
    StableHlo.unary main_c_8 main_v28 (broadcastInDim S64x68x2x1 ![] bcast_S_S64x68x2x1 : (⟨S_, .i32⟩ : BufTy).Contents (Elt F) → (⟨S64x68x2x1, .i32⟩ : BufTy).Contents (Elt F)),
    StableHlo.binary main_v12 main_v28 main_v29 (addi : (⟨S64x68x2x1, .i32⟩ : BufTy).Contents (Elt F) → (⟨S64x68x2x1, .i32⟩ : BufTy).Contents (Elt F) → (⟨S64x68x2x1, .i32⟩ : BufTy).Contents (Elt F)),
    StableHlo.ternary main_v27 main_v29 main_v12 main_v30 (select : (⟨S64x68x2x1, .i1⟩ : BufTy).Contents (Elt F) → (⟨S64x68x2x1, .i32⟩ : BufTy).Contents (Elt F) → (⟨S64x68x2x1, .i32⟩ : BufTy).Contents (Elt F) → (⟨S64x68x2x1, .i32⟩ : BufTy).Contents (Elt F)),
    StableHlo.nullary main_c_9 (constantI S_ 32 0#32),
    StableHlo.unary main_c_9 main_v31 (broadcastInDim S64x68x1x2 ![] bcast_S_S64x68x1x2 : (⟨S_, .i32⟩ : BufTy).Contents (Elt F) → (⟨S64x68x1x2, .i32⟩ : BufTy).Contents (Elt F)),
    StableHlo.binary main_v17 main_v31 main_v32 (cmpi .slt : (⟨S64x68x1x2, .i32⟩ : BufTy).Contents (Elt F) → (⟨S64x68x1x2, .i32⟩ : BufTy).Contents (Elt F) → (⟨S64x68x1x2, .i1⟩ : BufTy).Contents (Elt F)),
    StableHlo.nullary main_c_10 (constantI S_ 32 256#32),
    StableHlo.unary main_c_10 main_v33 (broadcastInDim S64x68x1x2 ![] bcast_S_S64x68x1x2 : (⟨S_, .i32⟩ : BufTy).Contents (Elt F) → (⟨S64x68x1x2, .i32⟩ : BufTy).Contents (Elt F)),
    StableHlo.binary main_v17 main_v33 main_v34 (addi : (⟨S64x68x1x2, .i32⟩ : BufTy).Contents (Elt F) → (⟨S64x68x1x2, .i32⟩ : BufTy).Contents (Elt F) → (⟨S64x68x1x2, .i32⟩ : BufTy).Contents (Elt F)),
    StableHlo.ternary main_v32 main_v34 main_v17 main_v35 (select : (⟨S64x68x1x2, .i1⟩ : BufTy).Contents (Elt F) → (⟨S64x68x1x2, .i32⟩ : BufTy).Contents (Elt F) → (⟨S64x68x1x2, .i32⟩ : BufTy).Contents (Elt F) → (⟨S64x68x1x2, .i32⟩ : BufTy).Contents (Elt F)),
    StableHlo.unary main_v25 main_v36 (broadcastInDim S64x68x2x2 ![0, 1, 2, 3] bcast_S64x1x1x1_S64x68x2x2_0_1_2_3 : (⟨S64x1x1x1, .i32⟩ : BufTy).Contents (Elt F) → (⟨S64x68x2x2, .i32⟩ : BufTy).Contents (Elt F)),
    StableHlo.unary main_v30 main_v37 (broadcastInDim S64x68x2x2 ![0, 1, 2, 3] bcast_S64x68x2x1_S64x68x2x2_0_1_2_3 : (⟨S64x68x2x1, .i32⟩ : BufTy).Contents (Elt F) → (⟨S64x68x2x2, .i32⟩ : BufTy).Contents (Elt F)),
    StableHlo.unary main_v35 main_v38 (broadcastInDim S64x68x2x2 ![0, 1, 2, 3] bcast_S64x68x1x2_S64x68x2x2_0_1_2_3 : (⟨S64x68x1x2, .i32⟩ : BufTy).Contents (Elt F) → (⟨S64x68x2x2, .i32⟩ : BufTy).Contents (Elt F)),
    StableHlo.unary main_v36 main_v39 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v37 main_v40 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v38 main_v41 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.nary ![main_v39, main_v40, main_v41] main_v42 (fun u => concatenate S64x68x2x2x3 4 [⟨S64x68x2x2x1, u 0⟩, ⟨S64x68x2x2x1, u 1⟩, ⟨S64x68x2x2x1, u 2⟩] concatenates_S64x68x2x2x1_S64x68x2x2x1_S64x68x2x2x1_S64x68x2x2x3_d4),
    StableHlo.nullary main_c_11 (constantI S_ 1 1#1),
    StableHlo.unary main_c_11 main_v43 (broadcastInDim S64x68x2x2 ![] bcast_S_S64x68x2x2 : (⟨S_, .i1⟩ : BufTy).Contents (Elt F) → (⟨S64x68x2x2, .i1⟩ : BufTy).Contents (Elt F)),
    StableHlo.ternary main_v20 main_v42 main_v43 main_v44 ((fun x i u => Host.scatter scatter_S64x256x256_S64x68x2x2x3_S64x68x2x2_n_012_012_4 (fun _ b => b) x i u) : (⟨S64x256x256, .i1⟩ : BufTy).Contents (Elt F) → (⟨S64x68x2x2x3, .i32⟩ : BufTy).Contents (Elt F) → (⟨S64x68x2x2, .i1⟩ : BufTy).Contents (Elt F) → (⟨S64x256x256, .i1⟩ : BufTy).Contents (Elt F)) ]

/-- The operations after the mask, in order: the mask given a channel axis; each image kept where the mask
    (spread over the three channels) holds and replaced by 255 elsewhere (each selection's three operations
    listed where it is called); the difference, its absolute value, the sum of all elements from zero, and
    the division by 12582912 = 64 · 3 · 256 · 256. -/
abbrev tailOps : List (HloOp τ sig (Elt F)) :=
  [ StableHlo.unary main_v44 main_v45 (broadcastInDim S64x1x256x256 ![0, 2, 3] bcast_S64x256x256_S64x1x256x256_0_2_3 : (⟨S64x256x256, .i1⟩ : BufTy).Contents (Elt F) → (⟨S64x1x256x256, .i1⟩ : BufTy).Contents (Elt F)),
    StableHlo.nullary main_cst (constant S_ .f32 0x437F0000#32),
    StableHlo.TRef.unary (.of main_v45 : StableHlo.TRef sig ⟨S64x1x256x256, .i1⟩) (.of main_call2_v0 : StableHlo.TRef sig ⟨S64x3x256x256, .i1⟩) (broadcastInDim S64x3x256x256 ![0, 1, 2, 3] bcast_S64x1x256x256_S64x3x256x256_0_1_2_3),
    StableHlo.TRef.unary (.of main_cst : StableHlo.TRef sig ⟨S_, .f32⟩) (.of main_call2_v1 : StableHlo.TRef sig ⟨S64x3x256x256, .f32⟩) (broadcastInDim S64x3x256x256 ![] bcast_S_S64x3x256x256),
    StableHlo.TRef.ternary (.of main_call2_v0 : StableHlo.TRef sig ⟨S64x3x256x256, .i1⟩) (.of main_arg0 : StableHlo.TRef sig ⟨S64x3x256x256, .f32⟩) (.of main_call2_v1 : StableHlo.TRef sig ⟨S64x3x256x256, .f32⟩) (.of main_v46 : StableHlo.TRef sig ⟨S64x3x256x256, .f32⟩) select,
    StableHlo.nullary main_cst_12 (constant S_ .f32 0x437F0000#32),
    StableHlo.TRef.unary (.of main_v45 : StableHlo.TRef sig ⟨S64x1x256x256, .i1⟩) (.of main_call3_v0 : StableHlo.TRef sig ⟨S64x3x256x256, .i1⟩) (broadcastInDim S64x3x256x256 ![0, 1, 2, 3] bcast_S64x1x256x256_S64x3x256x256_0_1_2_3),
    StableHlo.TRef.unary (.of main_cst_12 : StableHlo.TRef sig ⟨S_, .f32⟩) (.of main_call3_v1 : StableHlo.TRef sig ⟨S64x3x256x256, .f32⟩) (broadcastInDim S64x3x256x256 ![] bcast_S_S64x3x256x256),
    StableHlo.TRef.ternary (.of main_call3_v0 : StableHlo.TRef sig ⟨S64x3x256x256, .i1⟩) (.of main_arg1 : StableHlo.TRef sig ⟨S64x3x256x256, .f32⟩) (.of main_call3_v1 : StableHlo.TRef sig ⟨S64x3x256x256, .f32⟩) (.of main_v47 : StableHlo.TRef sig ⟨S64x3x256x256, .f32⟩) select,
    StableHlo.binary main_v46 main_v47 main_v48 (subf : (⟨S64x3x256x256, .f32⟩ : BufTy).Contents (Elt F) → (⟨S64x3x256x256, .f32⟩ : BufTy).Contents (Elt F) → (⟨S64x3x256x256, .f32⟩ : BufTy).Contents (Elt F)),
    StableHlo.unary main_v48 main_v49 (Host.absf : (⟨S64x3x256x256, .f32⟩ : BufTy).Contents (Elt F) → (⟨S64x3x256x256, .f32⟩ : BufTy).Contents (Elt F)),
    StableHlo.nullary main_cst_13 (constant S_ .f32 0x00000000#32),
    StableHlo.binary main_v49 main_cst_13 main_v50 ((fun x v => Host.reduceAdd x v reducesTo_S64x3x256x256_S_d0_1_2_3 h_S_) : (⟨S64x3x256x256, .f32⟩ : BufTy).Contents (Elt F) → (⟨S_, .f32⟩ : BufTy).Contents (Elt F) → (⟨S_, .f32⟩ : BufTy).Contents (Elt F)),
    StableHlo.nullary main_cst_14 (constant S_ .f32 0x4B400000#32),
    StableHlo.binary main_v50 main_cst_14 main_v51 (Host.divf : (⟨S_, .f32⟩ : BufTy).Contents (Elt F) → (⟨S_, .f32⟩ : BufTy).Contents (Elt F) → (⟨S_, .f32⟩ : BufTy).Contents (Elt F)) ]

/-- All the operations, in order. -/
abbrev ops : List (HloOp τ sig (Elt F)) := maskOps ++ tailOps

/-- The mask: what the first stretch leaves in the scatter's result buffer, from the launch contents of
    device `c`. It depends on the landmark array alone; it is left as this fold, not opened. -/
def maskVal (m : (ℓ : Loc nD τ sig) → Buf (Elt F) ℓ) (c : Dev nD) : (⟨S64x256x256, .i1⟩ : BufTy).Contents (Elt F) :=
  after maskOps (fun b => m (c, b)) (Proc.devRef .tc main_v44)

/-- The result as one term of the two image arrays and the mask `b`: the mask broadcast over a new channel
    axis and then over the three channels; each image selected against the constant 255 under it; the two
    subtracted; the absolute value; the sum over all four axes from 0; the sum divided by 12582912. -/
def refOut (x0 x1 : (⟨S64x3x256x256, .f32⟩ : BufTy).Contents (Elt F)) (b : (⟨S64x256x256, .i1⟩ : BufTy).Contents (Elt F)) :
    (⟨S_, .f32⟩ : BufTy).Contents (Elt F) :=
  Host.divf (F := F)
    (Host.reduceAdd (F := F)
      (Host.absf (F := F)
        (subf
          (select
            (broadcastInDim S64x3x256x256 ![0, 1, 2, 3] bcast_S64x1x256x256_S64x3x256x256_0_1_2_3
              (broadcastInDim S64x1x256x256 ![0, 2, 3] bcast_S64x256x256_S64x1x256x256_0_2_3 b))
            x0 (broadcastInDim S64x3x256x256 ![] bcast_S_S64x3x256x256 (constant (F := F) S_ .f32 0x437F0000#32)))
          (select
            (broadcastInDim S64x3x256x256 ![0, 1, 2, 3] bcast_S64x1x256x256_S64x3x256x256_0_1_2_3
              (broadcastInDim S64x1x256x256 ![0, 2, 3] bcast_S64x256x256_S64x1x256x256_0_2_3 b))
            x1 (broadcastInDim S64x3x256x256 ![] bcast_S_S64x3x256x256 (constant (F := F) S_ .f32 0x437F0000#32)))))
      (constant (F := F) S_ .f32 0x00000000#32) reducesTo_S64x3x256x256_S_d0_1_2_3 h_S_)
    (constant (F := F) S_ .f32 0x4B400000#32)

theorem scopedRefs_eq : (Finset.univ.filter fun b : Ref sig .tc => b.isScoped) = ∅ := by decide
theorem scopedSems_eq : (Finset.univ.filter fun sm : SemLoc sig => sm.isScoped .tc) = ∅ := by decide

theorem maskOps_sub : (maskOps : List (HloOp τ sig (Elt F))).Forall fun op => op.bufs ⊆ tcRefs τ sig :=
  ⟨nullary_bufs_sub .., unary_bufs_sub .., reshape_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., reshape_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., nullary_bufs_sub .., unary_bufs_sub .., nullary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., unary_bufs_sub .., unary_bufs_sub .., unary_bufs_sub .., nary_bufs_sub .., nullary_bufs_sub ..,
    unary_bufs_sub .., ternary_bufs_sub ..⟩
theorem tailOps_sub : (tailOps : List (HloOp τ sig (Elt F))).Forall fun op => op.bufs ⊆ tcRefs τ sig :=
  ⟨unary_bufs_sub .., nullary_bufs_sub .., unary_bufs_sub .., unary_bufs_sub .., ternary_bufs_sub .., nullary_bufs_sub ..,
    unary_bufs_sub .., unary_bufs_sub .., ternary_bufs_sub .., binary_bufs_sub .., unary_bufs_sub .., nullary_bufs_sub ..,
    binary_bufs_sub .., nullary_bufs_sub .., binary_bufs_sub ..⟩
theorem ops_sub : (ops : List (HloOp τ sig (Elt F))).Forall fun op => op.bufs ⊆ tcRefs τ sig :=
  List.forall_append.mpr ⟨maskOps_sub, tailOps_sub⟩

set_option maxRecDepth 4096 in
set_option maxHeartbeats 1600000 in
/-- @main is that straight line: its two windows one after the other, the functions' definitions unfolded at
    their calls and the records at their fields; both sides are one chain of steps once sequencing is
    reassociated. -/
theorem main_eq (c : Dev nD) : main (F := F) c = seq ops := by
  simp only [main, main_part0, main_part1, fn_clip.body, fn_where.body, ops, maskOps, tailOps, List.cons_append, List.nil_append,
    seq, bind_assoc, pure_bind]

/-! No operation writes an argument: each of the three argument buffers holds its launch contents after
    either stretch. -/

theorem mask_arg0 (V : Valuation τ sig (Elt F)) :
    after maskOps V (Proc.devRef .tc main_arg0) = V (Proc.devRef .tc main_arg0) :=
  after_of_forall_not_mem (b := Proc.devRef .tc main_arg0) _ _ (List.forall_iff_forall_mem.mp (by
    simp only [maskOps, List.Forall, nullary_writes, unary_writes, binary_writes, ternary_writes, reshape_writes, nary_writes,
      Finset.mem_singleton]
    repeat' apply And.intro
    all_goals exact devRef_ne_of_ne (by decide)))
theorem mask_arg1 (V : Valuation τ sig (Elt F)) :
    after maskOps V (Proc.devRef .tc main_arg1) = V (Proc.devRef .tc main_arg1) :=
  after_of_forall_not_mem (b := Proc.devRef .tc main_arg1) _ _ (List.forall_iff_forall_mem.mp (by
    simp only [maskOps, List.Forall, nullary_writes, unary_writes, binary_writes, ternary_writes, reshape_writes, nary_writes,
      Finset.mem_singleton]
    repeat' apply And.intro
    all_goals exact devRef_ne_of_ne (by decide)))
theorem mask_arg2 (V : Valuation τ sig (Elt F)) :
    after maskOps V (Proc.devRef .tc main_arg2) = V (Proc.devRef .tc main_arg2) :=
  after_of_forall_not_mem (b := Proc.devRef .tc main_arg2) _ _ (List.forall_iff_forall_mem.mp (by
    simp only [maskOps, List.Forall, nullary_writes, unary_writes, binary_writes, ternary_writes, reshape_writes, nary_writes,
      Finset.mem_singleton]
    repeat' apply And.intro
    all_goals exact devRef_ne_of_ne (by decide)))
theorem tail_arg0 (V : Valuation τ sig (Elt F)) :
    after tailOps V (Proc.devRef .tc main_arg0) = V (Proc.devRef .tc main_arg0) :=
  after_of_forall_not_mem (b := Proc.devRef .tc main_arg0) _ _ (List.forall_iff_forall_mem.mp (by
    simp only [tailOps, List.Forall, nullary_writes, unary_writes, binary_writes, ternary_writes, reshape_writes, nary_writes,
      Finset.mem_singleton]
    repeat' apply And.intro
    all_goals exact devRef_ne_of_ne (by decide)))
theorem tail_arg1 (V : Valuation τ sig (Elt F)) :
    after tailOps V (Proc.devRef .tc main_arg1) = V (Proc.devRef .tc main_arg1) :=
  after_of_forall_not_mem (b := Proc.devRef .tc main_arg1) _ _ (List.forall_iff_forall_mem.mp (by
    simp only [tailOps, List.Forall, nullary_writes, unary_writes, binary_writes, ternary_writes, reshape_writes, nary_writes,
      Finset.mem_singleton]
    repeat' apply And.intro
    all_goals exact devRef_ne_of_ne (by decide)))
theorem tail_arg2 (V : Valuation τ sig (Elt F)) :
    after tailOps V (Proc.devRef .tc main_arg2) = V (Proc.devRef .tc main_arg2) :=
  after_of_forall_not_mem (b := Proc.devRef .tc main_arg2) _ _ (List.forall_iff_forall_mem.mp (by
    simp only [tailOps, List.Forall, nullary_writes, unary_writes, binary_writes, ternary_writes, reshape_writes, nary_writes,
      Finset.mem_singleton]
    repeat' apply And.intro
    all_goals exact devRef_ne_of_ne (by decide)))

theorem ops_arg0 (V : Valuation τ sig (Elt F)) : after ops V (Proc.devRef .tc main_arg0) = V (Proc.devRef .tc main_arg0) := by
  rw [show (ops : List (HloOp τ sig (Elt F))) = maskOps ++ tailOps from rfl, after_append, tail_arg0, mask_arg0]
theorem ops_arg1 (V : Valuation τ sig (Elt F)) : after ops V (Proc.devRef .tc main_arg1) = V (Proc.devRef .tc main_arg1) := by
  rw [show (ops : List (HloOp τ sig (Elt F))) = maskOps ++ tailOps from rfl, after_append, tail_arg1, mask_arg1]
theorem ops_arg2 (V : Valuation τ sig (Elt F)) : after ops V (Proc.devRef .tc main_arg2) = V (Proc.devRef .tc main_arg2) := by
  rw [show (ops : List (HloOp τ sig (Elt F))) = maskOps ++ tailOps from rfl, after_append, tail_arg2, mask_arg2]

attribute [local irreducible] Host.reduceAdd Host.divf Host.absf subf select broadcastInDim constant in
set_option maxRecDepth 8192 in
/-- The second stretch from any contents `W`: the result buffer ends at `refOut` of what `W` holds at the
    two images and at the mask's buffer. Each operation's value is its function of its operands' values; a
    call's typed references carry the buffers' own types, so moving contents along them is the identity. -/
theorem tail_out (W : Valuation τ sig (Elt F)) :
    after tailOps W (Proc.devRef .tc main_v51)
      = refOut (W (Proc.devRef .tc main_arg0)) (W (Proc.devRef .tc main_arg1)) (W (Proc.devRef .tc main_v44)) := by
  after_results
  rfl

/-- The whole line from any contents `V`: the result is `refOut` of the two images as `V` has them and of the
    mask the first stretch builds from `V`. -/
theorem out_eq (V : Valuation τ sig (Elt F)) :
    after ops V (Proc.devRef .tc main_v51)
      = refOut (V (Proc.devRef .tc main_arg0)) (V (Proc.devRef .tc main_arg1)) (after maskOps V (Proc.devRef .tc main_v44)) := by
  rw [show (ops : List (HloOp τ sig (Elt F))) = maskOps ++ tailOps from rfl, after_append, tail_out, mask_arg0, mask_arg1]

/-- On every device, for any float values, from any memory with zero counters: every weakly fair execution of
    @main terminates, nothing faulting, with the result at `refOut` of the two images' launch contents and of
    the mask built from the launch contents, and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51)
          = refOut (m ((c.tc : Thread nD τ).loc main_arg0)) (m ((c.tc : Thread nD τ).loc main_arg1)) (maskVal m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v51).trans (out_eq (launchContents m c)),
       (h c main_arg0).trans (ops_arg0 (launchContents m c)),
       (h c main_arg1).trans (ops_arg1 (launchContents m c)),
       (h c main_arg2).trans (ops_arg2 (launchContents m c))⟩)
    (run_seq scopedRefs_eq scopedSems_eq defs main (fun _ => ops) main_eq (fun _ => ops_sub) m ρ)

end Cert.ReferenceIdeal.RefRun

end
-- ==== Proof.MaskSplit.lean ====
/-
  The two programs build the same landmark mask.

  The kernel's @main and the reference's @main start with the same host operations on the landmark array: slices,
  conversions to integers, clips, broadcasts, adds and selects that produce three index arrays (sample, row,
  column), a concatenate of the three, and a scatter that sets the addressed entries of an all-false array. Each
  program's list is cut just before the concatenate. After the cut the few remaining operations are read for ANY
  contents of the buffers: the mask is the scatter of the three index arrays as they then stand. Before the cut,
  run from landmark arrays that agree, each of the three index arrays (and the all-false array) is the same composed
  function of the landmark array in both programs. So the masks are equal; the kernel's one further operation
  turns its mask into 0.0 / 1.0.
-/
import proofs.«169952_j75771813036236_1_alg».proof.Proof.KernelIdeal.Value
import proofs.«169952_j75771813036236_1_alg».proof.Proof.RefRun
import Idealize.ShloMosaic.PureOps.Ideal

set_option maxRecDepth 16384

noncomputable section

/-! ## The kernel's host prefix, cut before the concatenate -/

namespace Cert.KernelIdeal.MaskSplit

open Cert.KernelIdeal Cert.KernelIdeal.Gen
open Idealize.ShloMosaic Idealize.ShloMosaic.TcCoe Idealize.ShloMosaic.StableHlo
open Idealize.SL.Sem

variable {F : FTy → Type} [FloatOps F]

/-- The last stretch of the prefix up to the three index arrays, -/
abbrev headOps : List (HloOp τ sig (Elt F)) :=
  [ StableHlo.unary main_v3 main_v8 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v9 (broadcastInDim S1x1x2x1 ![2] bcast_S2_S1x1x2x1_2 : (⟨S2, .i32⟩ : BufTy).Contents (Elt F) → (⟨S1x1x2x1, .i32⟩ : BufTy).Contents (Elt F)),
    StableHlo.unary main_v8 main_v10 (broadcastInDim S64x68x2x1 ![0, 1, 2, 3] bcast_S64x68x1x1_S64x68x2x1_0_1_2_3 : (⟨S64x68x1x1, .i32⟩ : BufTy).Contents (Elt F) → (⟨S64x68x2x1, .i32⟩ : BufTy).Contents (Elt F)),
    StableHlo.unary main_v9 main_v11 (broadcastInDim S64x68x2x1 ![0, 1, 2, 3] bcast_S1x1x2x1_S64x68x2x1_0_1_2_3 : (⟨S1x1x2x1, .i32⟩ : BufTy).Contents (Elt F) → (⟨S64x68x2x1, .i32⟩ : BufTy).Contents (Elt F)),
    StableHlo.binary main_v10 main_v11 main_v12 (addi : (⟨S64x68x2x1, .i32⟩ : BufTy).Contents (Elt F) → (⟨S64x68x2x1, .i32⟩ : BufTy).Contents (Elt F) → (⟨S64x68x2x1, .i32⟩ : BufTy).Contents (Elt F)),
    StableHlo.unary main_v7 main_v13 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v14 (broadcastInDim S1x1x1x2 ![3] bcast_S2_S1x1x1x2_3 : (⟨S2, .i32⟩ : BufTy).Contents (Elt F) → (⟨S1x1x1x2, .i32⟩ : BufTy).Contents (Elt F)),
    StableHlo.unary main_v13 main_v15 (broadcastInDim S64x68x1x2 ![0, 1, 2, 3] bcast_S64x68x1x1_S64x68x1x2_0_1_2_3 : (⟨S64x68x1x1, .i32⟩ : BufTy).Contents (Elt F) → (⟨S64x68x1x2, .i32⟩ : BufTy).Contents (Elt F)),
    StableHlo.unary main_v14 main_v16 (broadcastInDim S64x68x1x2 ![0, 1, 2, 3] bcast_S1x1x1x2_S64x68x1x2_0_1_2_3 : (⟨S1x1x1x2, .i32⟩ : BufTy).Contents (Elt F) → (⟨S64x68x1x2, .i32⟩ : BufTy).Contents (Elt F)),
    StableHlo.binary main_v15 main_v16 main_v17 (addi : (⟨S64x68x1x2, .i32⟩ : BufTy).Contents (Elt F) → (⟨S64x68x1x2, .i32⟩ : BufTy).Contents (Elt F) → (⟨S64x68x1x2, .i32⟩ : BufTy).Contents (Elt F)),
    StableHlo.nullary main_v18 (iotaInDim S64 32 0),
    StableHlo.unary main_v18 main_v19 (broadcastInDim S64x1x1x1 ![0] bcast_S64_S64x1x1x1_0 : (⟨S64, .i32⟩ : BufTy).Contents (Elt F) → (⟨S64x1x1x1, .i32⟩ : BufTy).Contents (Elt F)),
    StableHlo.nullary main_c_4 (constantI S_ 1 0#1),
    StableHlo.unary main_c_4 main_v20 (broadcastInDim S64x256x256 ![] bcast_S_S64x256x256 : (⟨S_, .i1⟩ : BufTy).Contents (Elt F) → (⟨S64x256x256, .i1⟩ : BufTy).Contents (Elt F)),
    StableHlo.nullary main_c_5 (constantI S_ 32 0#32),
    StableHlo.unary main_c_5 main_v21 (broadcastInDim S64x1x1x1 ![] bcast_S_S64x1x1x1 : (⟨S_, .i32⟩ : BufTy).Contents (Elt F) → (⟨S64x1x1x1, .i32⟩ : BufTy).Contents (Elt F)),
    StableHlo.binary main_v19 main_v21 main_v22 (cmpi .slt : (⟨S64x1x1x1, .i32⟩ : BufTy).Contents (Elt F) → (⟨S64x1x1x1, .i32⟩ : BufTy).Contents (Elt F) → (⟨S64x1x1x1, .i1⟩ : BufTy).Contents (Elt F)),
    StableHlo.nullary main_c_6 (constantI S_ 32 64#32),
    StableHlo.unary main_c_6 main_v23 (broadcastInDim S64x1x1x1 ![] bcast_S_S64x1x1x1 : (⟨S_, .i32⟩ : BufTy).Contents (Elt F) → (⟨S64x1x1x1, .i32⟩ : BufTy).Contents (Elt F)),
    StableHlo.binary main_v19 main_v23 main_v24 (addi : (⟨S64x1x1x1, .i32⟩ : BufTy).Contents (Elt F) → (⟨S64x1x1x1, .i32⟩ : BufTy).Contents (Elt F) → (⟨S64x1x1x1, .i32⟩ : BufTy).Contents (Elt F)),
    StableHlo.ternary main_v22 main_v24 main_v19 main_v25 (select : (⟨S64x1x1x1, .i1⟩ : BufTy).Contents (Elt F) → (⟨S64x1x1x1, .i32⟩ : BufTy).Contents (Elt F) → (⟨S64x1x1x1, .i32⟩ : BufTy).Contents (Elt F) → (⟨S64x1x1x1, .i32⟩ : BufTy).Contents (Elt F)),
    StableHlo.nullary main_c_7 (constantI S_ 32 0#32),
    StableHlo.unary main_c_7 main_v26 (broadcastInDim S64x68x2x1 ![] bcast_S_S64x68x2x1 : (⟨S_, .i32⟩ : BufTy).Contents (Elt F) → (⟨S64x68x2x1, .i32⟩ : BufTy).Contents (Elt F)),
    StableHlo.binary main_v12 main_v26 main_v27 (cmpi .slt : (⟨S64x68x2x1, .i32⟩ : BufTy).Contents (Elt F) → (⟨S64x68x2x1, .i32⟩ : BufTy).Contents (Elt F) → (⟨S64x68x2x1, .i1⟩ : BufTy).Contents (Elt F)),
    StableHlo.nullary main_c_8 (constantI S_ 32 256#32),
    StableHlo.unary main_c_8 main_v28 (broadcastInDim S64x68x2x1 ![] bcast_S_S64x68x2x1 : (⟨S_, .i32⟩ : BufTy).Contents (Elt F) → (⟨S64x68x2x1, .i32⟩ : BufTy).Contents (Elt F)),
    StableHlo.binary main_v12 main_v28 main_v29 (addi : (⟨S64x68x2x1, .i32⟩ : BufTy).Contents (Elt F) → (⟨S64x68x2x1, .i32⟩ : BufTy).Contents (Elt F) → (⟨S64x68x2x1, .i32⟩ : BufTy).Contents (Elt F)),
    StableHlo.ternary main_v27 main_v29 main_v12 main_v30 (select : (⟨S64x68x2x1, .i1⟩ : BufTy).Contents (Elt F) → (⟨S64x68x2x1, .i32⟩ : BufTy).Contents (Elt F) → (⟨S64x68x2x1, .i32⟩ : BufTy).Contents (Elt F) → (⟨S64x68x2x1, .i32⟩ : BufTy).Contents (Elt F)),
    StableHlo.nullary main_c_9 (constantI S_ 32 0#32),
    StableHlo.unary main_c_9 main_v31 (broadcastInDim S64x68x1x2 ![] bcast_S_S64x68x1x2 : (⟨S_, .i32⟩ : BufTy).Contents (Elt F) → (⟨S64x68x1x2, .i32⟩ : BufTy).Contents (Elt F)),
    StableHlo.binary main_v17 main_v31 main_v32 (cmpi .slt : (⟨S64x68x1x2, .i32⟩ : BufTy).Contents (Elt F) → (⟨S64x68x1x2, .i32⟩ : BufTy).Contents (Elt F) → (⟨S64x68x1x2, .i1⟩ : BufTy).Contents (Elt F)),
    StableHlo.nullary main_c_10 (constantI S_ 32 256#32),
    StableHlo.unary main_c_10 main_v33 (broadcastInDim S64x68x1x2 ![] bcast_S_S64x68x1x2 : (⟨S_, .i32⟩ : BufTy).Contents (Elt F) → (⟨S64x68x1x2, .i32⟩ : BufTy).Contents (Elt F)),
    StableHlo.binary main_v17 main_v33 main_v34 (addi : (⟨S64x68x1x2, .i32⟩ : BufTy).Contents (Elt F) → (⟨S64x68x1x2, .i32⟩ : BufTy).Contents (Elt F) → (⟨S64x68x1x2, .i32⟩ : BufTy).Contents (Elt F)),
    StableHlo.ternary main_v32 main_v34 main_v17 main_v35 (select : (⟨S64x68x1x2, .i1⟩ : BufTy).Contents (Elt F) → (⟨S64x68x1x2, .i32⟩ : BufTy).Contents (Elt F) → (⟨S64x68x1x2, .i32⟩ : BufTy).Contents (Elt F) → (⟨S64x68x1x2, .i32⟩ : BufTy).Contents (Elt F)),
    StableHlo.unary main_v25 main_v36 (broadcastInDim S64x68x2x2 ![0, 1, 2, 3] bcast_S64x1x1x1_S64x68x2x2_0_1_2_3 : (⟨S64x1x1x1, .i32⟩ : BufTy).Contents (Elt F) → (⟨S64x68x2x2, .i32⟩ : BufTy).Contents (Elt F)),
    StableHlo.unary main_v30 main_v37 (broadcastInDim S64x68x2x2 ![0, 1, 2, 3] bcast_S64x68x2x1_S64x68x2x2_0_1_2_3 : (⟨S64x68x2x1, .i32⟩ : BufTy).Contents (Elt F) → (⟨S64x68x2x2, .i32⟩ : BufTy).Contents (Elt F)),
    StableHlo.unary main_v35 main_v38 (broadcastInDim S64x68x2x2 ![0, 1, 2, 3] bcast_S64x68x1x2_S64x68x2x2_0_1_2_3 : (⟨S64x68x1x2, .i32⟩ : BufTy).Contents (Elt F) → (⟨S64x68x2x2, .i32⟩ : BufTy).Contents (Elt F)),
    StableHlo.unary main_v36 main_v39 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v37 main_v40 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v38 main_v41 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)) ]
/-- and from the concatenate on: the concatenate, the all-true updates, the scatter, the conversion to f32. -/
abbrev lastOps : List (HloOp τ sig (Elt F)) :=
  [ StableHlo.nary ![main_v39, main_v40, main_v41] main_v42 (fun u => concatenate S64x68x2x2x3 4 [⟨S64x68x2x2x1, u 0⟩, ⟨S64x68x2x2x1, u 1⟩, ⟨S64x68x2x2x1, u 2⟩] concatenates_S64x68x2x2x1_S64x68x2x2x1_S64x68x2x2x1_S64x68x2x2x3_d4),
    StableHlo.nullary main_c_11 (constantI S_ 1 1#1),
    StableHlo.unary main_c_11 main_v43 (broadcastInDim S64x68x2x2 ![] bcast_S_S64x68x2x2 : (⟨S_, .i1⟩ : BufTy).Contents (Elt F) → (⟨S64x68x2x2, .i1⟩ : BufTy).Contents (Elt F)),
    StableHlo.ternary main_v20 main_v42 main_v43 main_v44 ((fun x i u => Host.scatter scatter_S64x256x256_S64x68x2x2x3_S64x68x2x2_n_012_012_4 (fun _ b => b) x i u) : (⟨S64x256x256, .i1⟩ : BufTy).Contents (Elt F) → (⟨S64x68x2x2x3, .i32⟩ : BufTy).Contents (Elt F) → (⟨S64x68x2x2, .i1⟩ : BufTy).Contents (Elt F) → (⟨S64x256x256, .i1⟩ : BufTy).Contents (Elt F)),
    StableHlo.unary main_v44 main_v45 (uitofp .f32 : (⟨S64x256x256, .i1⟩ : BufTy).Contents (Elt F) → (⟨S64x256x256, .f32⟩ : BufTy).Contents (Elt F)) ]

/-- Everything before the concatenate. -/
abbrev beforeOps : List (HloOp τ sig (Elt F)) := hostOps0 ++ hostOps0_1 ++ hostOps0_2 ++ hostOps0_3 ++ headOps

theorem prefix_split : List.flatten (Cert.KernelIdeal.Acc.preOps (F := F)) = beforeOps ++ lastOps := rfl

/-- From any contents `W` the last stretch leaves, in the f32 mask's buffer, the scatter of the three index arrays
    as `W` has them into the array `W` has in the all-false buffer, as 0.0 / 1.0. -/
theorem last_out (W : Valuation τ sig (Elt F)) :
    after lastOps W (Proc.devRef .tc main_v45)
      = uitofp (F := F) .f32 (Host.scatter scatter_S64x256x256_S64x68x2x2x3_S64x68x2x2_n_012_012_4 (fun _ b => b)
        (W (Proc.devRef .tc main_v20) : (⟨S64x256x256, .i1⟩ : BufTy).Contents (Elt F))
        (concatenate S64x68x2x2x3 4
          [⟨S64x68x2x2x1, (W (Proc.devRef .tc main_v39) : (⟨S64x68x2x2x1, .i32⟩ : BufTy).Contents (Elt F))⟩,
           ⟨S64x68x2x2x1, (W (Proc.devRef .tc main_v40) : (⟨S64x68x2x2x1, .i32⟩ : BufTy).Contents (Elt F))⟩,
           ⟨S64x68x2x2x1, (W (Proc.devRef .tc main_v41) : (⟨S64x68x2x2x1, .i32⟩ : BufTy).Contents (Elt F))⟩]
          concatenates_S64x68x2x2x1_S64x68x2x2x1_S64x68x2x2x1_S64x68x2x2x3_d4)
        (broadcastInDim S64x68x2x2 ![] bcast_S_S64x68x2x2 (constantI S_ 1 1#1))) := by
  after_results
  rfl

end Cert.KernelIdeal.MaskSplit

/-! ## The reference's mask operations, cut at the same place -/

namespace Cert.ReferenceIdeal.MaskSplit

open Cert.ReferenceIdeal Cert.ReferenceIdeal.Gen
open Idealize.ShloMosaic Idealize.ShloMosaic.TcCoe Idealize.ShloMosaic.StableHlo
open Idealize.SL.Sem

variable {F : FTy → Type} [FloatOps F]

/-- The mask operations up to the three index arrays, -/
abbrev beforeOps : List (HloOp τ sig (Elt F)) :=
  [ StableHlo.nullary main_c (fun i => lit0 (S2.rowMajor i)),
    StableHlo.unary main_arg2 main_v0 ((extractStridedSlice S64x1x68 ![0, 0, 2] · slices_S64x1x138_S64x1x68_0_0_2) : (⟨S64x1x138, .f32⟩ : BufTy).Contents (Elt F) → (⟨S64x1x68, .f32⟩ : BufTy).Contents (Elt F)),
    StableHlo.reshape main_v0 main_v1 rfl shapeCasts_S64x1x68_S64x68,
    StableHlo.unary main_v1 main_v2 (fptosi 32 : (⟨S64x68, .f32⟩ : BufTy).Contents (Elt F) → (⟨S64x68, .i32⟩ : BufTy).Contents (Elt F)),
    StableHlo.nullary main_c_0 (constantI S_ 32 1#32),
    StableHlo.nullary main_c_1 (constantI S_ 32 254#32),
    StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S64x68, .i32⟩) (broadcastInDim S64x68 ![] bcast_S_S64x68),
    StableHlo.TRef.binary (.of main_call0_v1 : StableHlo.TRef sig ⟨S64x68, .i32⟩) (.of main_v2 : StableHlo.TRef sig ⟨S64x68, .i32⟩) (.of main_call0_v2 : StableHlo.TRef sig ⟨S64x68, .i32⟩) maxsi,
    StableHlo.TRef.unary (.of main_c_1 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S64x68, .i32⟩) (broadcastInDim S64x68 ![] bcast_S_S64x68),
    StableHlo.TRef.binary (.of main_call0_v4 : StableHlo.TRef sig ⟨S64x68, .i32⟩) (.of main_call0_v2 : StableHlo.TRef sig ⟨S64x68, .i32⟩) (.of main_v3 : StableHlo.TRef sig ⟨S64x68, .i32⟩) minsi,
    StableHlo.unary main_arg2 main_v4 ((extractStridedSlice S64x1x68 ![0, 0, 70] · slices_S64x1x138_S64x1x68_0_0_70) : (⟨S64x1x138, .f32⟩ : BufTy).Contents (Elt F) → (⟨S64x1x68, .f32⟩ : BufTy).Contents (Elt F)),
    StableHlo.reshape main_v4 main_v5 rfl shapeCasts_S64x1x68_S64x68,
    StableHlo.unary main_v5 main_v6 (fptosi 32 : (⟨S64x68, .f32⟩ : BufTy).Contents (Elt F) → (⟨S64x68, .i32⟩ : BufTy).Contents (Elt F)),
    StableHlo.nullary main_c_2 (constantI S_ 32 1#32),
    StableHlo.nullary main_c_3 (constantI S_ 32 254#32),
    StableHlo.TRef.unary (.of main_c_2 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S64x68, .i32⟩) (broadcastInDim S64x68 ![] bcast_S_S64x68),
    StableHlo.TRef.binary (.of main_call1_v1 : StableHlo.TRef sig ⟨S64x68, .i32⟩) (.of main_v6 : StableHlo.TRef sig ⟨S64x68, .i32⟩) (.of main_call1_v2 : StableHlo.TRef sig ⟨S64x68, .i32⟩) maxsi,
    StableHlo.TRef.unary (.of main_c_3 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S64x68, .i32⟩) (broadcastInDim S64x68 ![] bcast_S_S64x68),
    StableHlo.TRef.binary (.of main_call1_v4 : StableHlo.TRef sig ⟨S64x68, .i32⟩) (.of main_call1_v2 : StableHlo.TRef sig ⟨S64x68, .i32⟩) (.of main_v7 : StableHlo.TRef sig ⟨S64x68, .i32⟩) minsi,
    StableHlo.unary main_v3 main_v8 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v9 (broadcastInDim S1x1x2x1 ![2] bcast_S2_S1x1x2x1_2 : (⟨S2, .i32⟩ : BufTy).Contents (Elt F) → (⟨S1x1x2x1, .i32⟩ : BufTy).Contents (Elt F)),
    StableHlo.unary main_v8 main_v10 (broadcastInDim S64x68x2x1 ![0, 1, 2, 3] bcast_S64x68x1x1_S64x68x2x1_0_1_2_3 : (⟨S64x68x1x1, .i32⟩ : BufTy).Contents (Elt F) → (⟨S64x68x2x1, .i32⟩ : BufTy).Contents (Elt F)),
    StableHlo.unary main_v9 main_v11 (broadcastInDim S64x68x2x1 ![0, 1, 2, 3] bcast_S1x1x2x1_S64x68x2x1_0_1_2_3 : (⟨S1x1x2x1, .i32⟩ : BufTy).Contents (Elt F) → (⟨S64x68x2x1, .i32⟩ : BufTy).Contents (Elt F)),
    StableHlo.binary main_v10 main_v11 main_v12 (addi : (⟨S64x68x2x1, .i32⟩ : BufTy).Contents (Elt F) → (⟨S64x68x2x1, .i32⟩ : BufTy).Contents (Elt F) → (⟨S64x68x2x1, .i32⟩ : BufTy).Contents (Elt F)),
    StableHlo.unary main_v7 main_v13 (broadcastInDim S64x68x1x1 ![0, 1] bcast_S64x68_S64x68x1x1_0_1 : (⟨S64x68, .i32⟩ : BufTy).Contents (Elt F) → (⟨S64x68x1x1, .i32⟩ : BufTy).Contents (Elt F)),
    StableHlo.unary main_c main_v14 (broadcastInDim S1x1x1x2 ![3] bcast_S2_S1x1x1x2_3 : (⟨S2, .i32⟩ : BufTy).Contents (Elt F) → (⟨S1x1x1x2, .i32⟩ : BufTy).Contents (Elt F)),
    StableHlo.unary main_v13 main_v15 (broadcastInDim S64x68x1x2 ![0, 1, 2, 3] bcast_S64x68x1x1_S64x68x1x2_0_1_2_3 : (⟨S64x68x1x1, .i32⟩ : BufTy).Contents (Elt F) → (⟨S64x68x1x2, .i32⟩ : BufTy).Contents (Elt F)),
    StableHlo.unary main_v14 main_v16 (broadcastInDim S64x68x1x2 ![0, 1, 2, 3] bcast_S1x1x1x2_S64x68x1x2_0_1_2_3 : (⟨S1x1x1x2, .i32⟩ : BufTy).Contents (Elt F) → (⟨S64x68x1x2, .i32⟩ : BufTy).Contents (Elt F)),
    StableHlo.binary main_v15 main_v16 main_v17 (addi : (⟨S64x68x1x2, .i32⟩ : BufTy).Contents (Elt F) → (⟨S64x68x1x2, .i32⟩ : BufTy).Contents (Elt F) → (⟨S64x68x1x2, .i32⟩ : BufTy).Contents (Elt F)),
    StableHlo.nullary main_v18 (iotaInDim S64 32 0),
    StableHlo.unary main_v18 main_v19 (broadcastInDim S64x1x1x1 ![0] bcast_S64_S64x1x1x1_0 : (⟨S64, .i32⟩ : BufTy).Contents (Elt F) → (⟨S64x1x1x1, .i32⟩ : BufTy).Contents (Elt F)),
    StableHlo.nullary main_c_4 (constantI S_ 1 0#1),
    StableHlo.unary main_c_4 main_v20 (broadcastInDim S64x256x256 ![] bcast_S_S64x256x256 : (⟨S_, .i1⟩ : BufTy).Contents (Elt F) → (⟨S64x256x256, .i1⟩ : BufTy).Contents (Elt F)),
    StableHlo.nullary main_c_5 (constantI S_ 32 0#32),
    StableHlo.unary main_c_5 main_v21 (broadcastInDim S64x1x1x1 ![] bcast_S_S64x1x1x1 : (⟨S_, .i32⟩ : BufTy).Contents (Elt F) → (⟨S64x1x1x1, .i32⟩ : BufTy).Contents (Elt F)),
    StableHlo.binary main_v19 main_v21 main_v22 (cmpi .slt : (⟨S64x1x1x1, .i32⟩ : BufTy).Contents (Elt F) → (⟨S64x1x1x1, .i32⟩ : BufTy).Contents (Elt F) → (⟨S64x1x1x1, .i1⟩ : BufTy).Contents (Elt F)),
    StableHlo.nullary main_c_6 (constantI S_ 32 64#32),
    StableHlo.unary main_c_6 main_v23 (broadcastInDim S64x1x1x1 ![] bcast_S_S64x1x1x1 : (⟨S_, .i32⟩ : BufTy).Contents (Elt F) → (⟨S64x1x1x1, .i32⟩ : BufTy).Contents (Elt F)),
    StableHlo.binary main_v19 main_v23 main_v24 (addi : (⟨S64x1x1x1, .i32⟩ : BufTy).Contents (Elt F) → (⟨S64x1x1x1, .i32⟩ : BufTy).Contents (Elt F) → (⟨S64x1x1x1, .i32⟩ : BufTy).Contents (Elt F)),
    StableHlo.ternary main_v22 main_v24 main_v19 main_v25 (select : (⟨S64x1x1x1, .i1⟩ : BufTy).Contents (Elt F) → (⟨S64x1x1x1, .i32⟩ : BufTy).Contents (Elt F) → (⟨S64x1x1x1, .i32⟩ : BufTy).Contents (Elt F) → (⟨S64x1x1x1, .i32⟩ : BufTy).Contents (Elt F)),
    StableHlo.nullary main_c_7 (constantI S_ 32 0#32),
    StableHlo.unary main_c_7 main_v26 (broadcastInDim S64x68x2x1 ![] bcast_S_S64x68x2x1 : (⟨S_, .i32⟩ : BufTy).Contents (Elt F) → (⟨S64x68x2x1, .i32⟩ : BufTy).Contents (Elt F)),
    StableHlo.binary main_v12 main_v26 main_v27 (cmpi .slt : (⟨S64x68x2x1, .i32⟩ : BufTy).Contents (Elt F) → (⟨S64x68x2x1, .i32⟩ : BufTy).Contents (Elt F) → (⟨S64x68x2x1, .i1⟩ : BufTy).Contents (Elt F)),
    StableHlo.nullary main_c_8 (constantI S_ 32 256#32),
    StableHlo.unary main_c_8 main_v28 (broadcastInDim S64x68x2x1 ![] bcast_S_S64x68x2x1 : (⟨S_, .i32⟩ : BufTy).Contents (Elt F) → (⟨S64x68x2x1, .i32⟩ : BufTy).Contents (Elt F)),
    StableHlo.binary main_v12 main_v28 main_v29 (addi : (⟨S64x68x2x1, .i32⟩ : BufTy).Contents (Elt F) → (⟨S64x68x2x1, .i32⟩ : BufTy).Contents (Elt F) → (⟨S64x68x2x1, .i32⟩ : BufTy).Contents (Elt F)),
    StableHlo.ternary main_v27 main_v29 main_v12 main_v30 (select : (⟨S64x68x2x1, .i1⟩ : BufTy).Contents (Elt F) → (⟨S64x68x2x1, .i32⟩ : BufTy).Contents (Elt F) → (⟨S64x68x2x1, .i32⟩ : BufTy).Contents (Elt F) → (⟨S64x68x2x1, .i32⟩ : BufTy).Contents (Elt F)),
    StableHlo.nullary main_c_9 (constantI S_ 32 0#32),
    StableHlo.unary main_c_9 main_v31 (broadcastInDim S64x68x1x2 ![] bcast_S_S64x68x1x2 : (⟨S_, .i32⟩ : BufTy).Contents (Elt F) → (⟨S64x68x1x2, .i32⟩ : BufTy).Contents (Elt F)),
    StableHlo.binary main_v17 main_v31 main_v32 (cmpi .slt : (⟨S64x68x1x2, .i32⟩ : BufTy).Contents (Elt F) → (⟨S64x68x1x2, .i32⟩ : BufTy).Contents (Elt F) → (⟨S64x68x1x2, .i1⟩ : BufTy).Contents (Elt F)),
    StableHlo.nullary main_c_10 (constantI S_ 32 256#32),
    StableHlo.unary main_c_10 main_v33 (broadcastInDim S64x68x1x2 ![] bcast_S_S64x68x1x2 : (⟨S_, .i32⟩ : BufTy).Contents (Elt F) → (⟨S64x68x1x2, .i32⟩ : BufTy).Contents (Elt F)),
    StableHlo.binary main_v17 main_v33 main_v34 (addi : (⟨S64x68x1x2, .i32⟩ : BufTy).Contents (Elt F) → (⟨S64x68x1x2, .i32⟩ : BufTy).Contents (Elt F) → (⟨S64x68x1x2, .i32⟩ : BufTy).Contents (Elt F)),
    StableHlo.ternary main_v32 main_v34 main_v17 main_v35 (select : (⟨S64x68x1x2, .i1⟩ : BufTy).Contents (Elt F) → (⟨S64x68x1x2, .i32⟩ : BufTy).Contents (Elt F) → (⟨S64x68x1x2, .i32⟩ : BufTy).Contents (Elt F) → (⟨S64x68x1x2, .i32⟩ : BufTy).Contents (Elt F)),
    StableHlo.unary main_v25 main_v36 (broadcastInDim S64x68x2x2 ![0, 1, 2, 3] bcast_S64x1x1x1_S64x68x2x2_0_1_2_3 : (⟨S64x1x1x1, .i32⟩ : BufTy).Contents (Elt F) → (⟨S64x68x2x2, .i32⟩ : BufTy).Contents (Elt F)),
    StableHlo.unary main_v30 main_v37 (broadcastInDim S64x68x2x2 ![0, 1, 2, 3] bcast_S64x68x2x1_S64x68x2x2_0_1_2_3 : (⟨S64x68x2x1, .i32⟩ : BufTy).Contents (Elt F) → (⟨S64x68x2x2, .i32⟩ : BufTy).Contents (Elt F)),
    StableHlo.unary main_v35 main_v38 (broadcastInDim S64x68x2x2 ![0, 1, 2, 3] bcast_S64x68x1x2_S64x68x2x2_0_1_2_3 : (⟨S64x68x1x2, .i32⟩ : BufTy).Contents (Elt F) → (⟨S64x68x2x2, .i32⟩ : BufTy).Contents (Elt F)),
    StableHlo.unary main_v36 main_v39 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v37 main_v40 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)),
    StableHlo.unary main_v38 main_v41 (broadcastInDim S64x68x2x2x1 ![0, 1, 2, 3] bcast_S64x68x2x2_S64x68x2x2x1_0_1_2_3 : (⟨S64x68x2x2, .i32⟩ : BufTy).Contents (Elt F) → (⟨S64x68x2x2x1, .i32⟩ : BufTy).Contents (Elt F)) ]
/-- and from the concatenate on: the concatenate, the all-true updates, the scatter. -/
abbrev lastOps : List (HloOp τ sig (Elt F)) :=
  [ StableHlo.nary ![main_v39, main_v40, main_v41] main_v42 (fun u => concatenate S64x68x2x2x3 4 [⟨S64x68x2x2x1, u 0⟩, ⟨S64x68x2x2x1, u 1⟩, ⟨S64x68x2x2x1, u 2⟩] concatenates_S64x68x2x2x1_S64x68x2x2x1_S64x68x2x2x1_S64x68x2x2x3_d4),
    StableHlo.nullary main_c_11 (constantI S_ 1 1#1),
    StableHlo.unary main_c_11 main_v43 (broadcastInDim S64x68x2x2 ![] bcast_S_S64x68x2x2 : (⟨S_, .i1⟩ : BufTy).Contents (Elt F) → (⟨S64x68x2x2, .i1⟩ : BufTy).Contents (Elt F)),
    StableHlo.ternary main_v20 main_v42 main_v43 main_v44 ((fun x i u => Host.scatter scatter_S64x256x256_S64x68x2x2x3_S64x68x2x2_n_012_012_4 (fun _ b => b) x i u) : (⟨S64x256x256, .i1⟩ : BufTy).Contents (Elt F) → (⟨S64x68x2x2x3, .i32⟩ : BufTy).Contents (Elt F) → (⟨S64x68x2x2, .i1⟩ : BufTy).Contents (Elt F) → (⟨S64x256x256, .i1⟩ : BufTy).Contents (Elt F)) ]

theorem maskOps_split : (Cert.ReferenceIdeal.RefRun.maskOps : List (HloOp τ sig (Elt F))) = beforeOps ++ lastOps := rfl

/-- From any contents `W` the last stretch leaves, in the mask's buffer, the scatter of the three index arrays as
    `W` has them into the array `W` has in the all-false buffer. -/
theorem last_out (W : Valuation τ sig (Elt F)) :
    after lastOps W (Proc.devRef .tc main_v44)
      = Host.scatter scatter_S64x256x256_S64x68x2x2x3_S64x68x2x2_n_012_012_4 (fun _ b => b)
        (W (Proc.devRef .tc main_v20) : (⟨S64x256x256, .i1⟩ : BufTy).Contents (Elt F))
        (concatenate S64x68x2x2x3 4
          [⟨S64x68x2x2x1, (W (Proc.devRef .tc main_v39) : (⟨S64x68x2x2x1, .i32⟩ : BufTy).Contents (Elt F))⟩,
           ⟨S64x68x2x2x1, (W (Proc.devRef .tc main_v40) : (⟨S64x68x2x2x1, .i32⟩ : BufTy).Contents (Elt F))⟩,
           ⟨S64x68x2x2x1, (W (Proc.devRef .tc main_v41) : (⟨S64x68x2x2x1, .i32⟩ : BufTy).Contents (Elt F))⟩]
          concatenates_S64x68x2x2x1_S64x68x2x2x1_S64x68x2x2x1_S64x68x2x2x3_d4)
        (broadcastInDim S64x68x2x2 ![] bcast_S_S64x68x2x2 (constantI S_ 1 1#1)) := by
  after_results
  rfl

end Cert.ReferenceIdeal.MaskSplit

end
-- ==== Proof.Masks.lean ====
/-
  The f32 mask the kernel region finds is the reference's mask as 0.0 / 1.0.

  Before the concatenate, from landmark arrays that agree, the all-false array and the three index arrays are the
  same composed functions of the landmark array in both programs; after it both programs scatter those same arrays
  the same way.
-/
import proofs.«169952_j75771813036236_1_alg».proof.Proof.MaskSplit

set_option maxRecDepth 16384

noncomputable section

namespace Cert.Proof.Masks

open Idealize.ShloMosaic Idealize.ShloMosaic.TcCoe Idealize.ShloMosaic.StableHlo
open Idealize.SL.Sem

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev Cert.KernelIdeal.nD)
/-- Before the concatenate the two programs hold the same contents in buffer v20. -/
theorem agree_v20
    (h : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after (Cert.KernelIdeal.MaskSplit.beforeOps (F := Ideal)) (fun b => mK (c, b)) (Proc.devRef .tc Cert.KernelIdeal.main_v20)
      = after (Cert.ReferenceIdeal.MaskSplit.beforeOps (F := Ideal)) (fun b => mR (c, b)) (Proc.devRef .tc Cert.ReferenceIdeal.main_v20) := by
  simp only [Cert.KernelIdeal.MaskSplit.beforeOps, Cert.KernelIdeal.MaskSplit.headOps, Cert.KernelIdeal.Gen.hostOps0, Cert.KernelIdeal.Gen.hostOps0_1, Cert.KernelIdeal.Gen.hostOps0_2, Cert.KernelIdeal.Gen.hostOps0_3,
    Cert.ReferenceIdeal.MaskSplit.beforeOps, List.cons_append, List.nil_append, List.append_nil]
  after_results_simp
  all_goals (
    rw [show mR (c, Proc.devRef .tc Cert.ReferenceIdeal.main_arg2) = mK (c, Proc.devRef .tc Cert.KernelIdeal.main_arg2) from h]
    rfl)

/-- Before the concatenate the two programs hold the same contents in buffer v39. -/
theorem agree_v39
    (h : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after (Cert.KernelIdeal.MaskSplit.beforeOps (F := Ideal)) (fun b => mK (c, b)) (Proc.devRef .tc Cert.KernelIdeal.main_v39)
      = after (Cert.ReferenceIdeal.MaskSplit.beforeOps (F := Ideal)) (fun b => mR (c, b)) (Proc.devRef .tc Cert.ReferenceIdeal.main_v39) := by
  simp only [Cert.KernelIdeal.MaskSplit.beforeOps, Cert.KernelIdeal.MaskSplit.headOps, Cert.KernelIdeal.Gen.hostOps0, Cert.KernelIdeal.Gen.hostOps0_1, Cert.KernelIdeal.Gen.hostOps0_2, Cert.KernelIdeal.Gen.hostOps0_3,
    Cert.ReferenceIdeal.MaskSplit.beforeOps, List.cons_append, List.nil_append, List.append_nil]
  after_results_simp
  all_goals (
    rw [show mR (c, Proc.devRef .tc Cert.ReferenceIdeal.main_arg2) = mK (c, Proc.devRef .tc Cert.KernelIdeal.main_arg2) from h]
    rfl)

/-- Before the concatenate the two programs hold the same contents in buffer v40. -/
theorem agree_v40
    (h : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after (Cert.KernelIdeal.MaskSplit.beforeOps (F := Ideal)) (fun b => mK (c, b)) (Proc.devRef .tc Cert.KernelIdeal.main_v40)
      = after (Cert.ReferenceIdeal.MaskSplit.beforeOps (F := Ideal)) (fun b => mR (c, b)) (Proc.devRef .tc Cert.ReferenceIdeal.main_v40) := by
  simp only [Cert.KernelIdeal.MaskSplit.beforeOps, Cert.KernelIdeal.MaskSplit.headOps, Cert.KernelIdeal.Gen.hostOps0, Cert.KernelIdeal.Gen.hostOps0_1, Cert.KernelIdeal.Gen.hostOps0_2, Cert.KernelIdeal.Gen.hostOps0_3,
    Cert.ReferenceIdeal.MaskSplit.beforeOps, List.cons_append, List.nil_append, List.append_nil]
  after_results_simp
  all_goals (
    rw [show mR (c, Proc.devRef .tc Cert.ReferenceIdeal.main_arg2) = mK (c, Proc.devRef .tc Cert.KernelIdeal.main_arg2) from h]
    rfl)

/-- Before the concatenate the two programs hold the same contents in buffer v41. -/
theorem agree_v41
    (h : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    after (Cert.KernelIdeal.MaskSplit.beforeOps (F := Ideal)) (fun b => mK (c, b)) (Proc.devRef .tc Cert.KernelIdeal.main_v41)
      = after (Cert.ReferenceIdeal.MaskSplit.beforeOps (F := Ideal)) (fun b => mR (c, b)) (Proc.devRef .tc Cert.ReferenceIdeal.main_v41) := by
  simp only [Cert.KernelIdeal.MaskSplit.beforeOps, Cert.KernelIdeal.MaskSplit.headOps, Cert.KernelIdeal.Gen.hostOps0, Cert.KernelIdeal.Gen.hostOps0_1, Cert.KernelIdeal.Gen.hostOps0_2, Cert.KernelIdeal.Gen.hostOps0_3,
    Cert.ReferenceIdeal.MaskSplit.beforeOps, List.cons_append, List.nil_append, List.append_nil]
  after_results_simp
  all_goals (
    rw [show mR (c, Proc.devRef .tc Cert.ReferenceIdeal.main_arg2) = mK (c, Proc.devRef .tc Cert.KernelIdeal.main_arg2) from h]
    rfl)

/-- From landmark arrays that agree, the f32 mask the kernel region finds is the reference's mask as 0.0 / 1.0. -/
theorem masks_agree
    (h : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    Cert.KernelIdeal.Acc.V mK c Cert.KernelIdeal.main_v45 = uitofp (F := Ideal) .f32 (Cert.ReferenceIdeal.RefRun.maskVal mR c) := by
  unfold Cert.ReferenceIdeal.RefRun.maskVal
  show after (List.flatten (Cert.KernelIdeal.Acc.preOps (F := Ideal))) (fun b => mK (c, b)) (Proc.devRef .tc Cert.KernelIdeal.main_v45) = _
  rw [Cert.KernelIdeal.MaskSplit.prefix_split, after_append (Cert.KernelIdeal.MaskSplit.beforeOps (F := Ideal)) (Cert.KernelIdeal.MaskSplit.lastOps (F := Ideal)), Cert.KernelIdeal.MaskSplit.last_out,
    Cert.ReferenceIdeal.MaskSplit.maskOps_split, after_append (Cert.ReferenceIdeal.MaskSplit.beforeOps (F := Ideal)) (Cert.ReferenceIdeal.MaskSplit.lastOps (F := Ideal)), Cert.ReferenceIdeal.MaskSplit.last_out]
  rw [agree_v20 mK mR c h, agree_v39 mK mR c h, agree_v40 mK mR c h, agree_v41 mK mR c h]
  rfl

end Cert.Proof.Masks

end
-- ==== Proof.LibBlockSums.lean ====
import Idealize.ShloMosaic.Lib.ValueIdx
import Mathlib.Algebra.BigOperators.Fin
import Mathlib.Algebra.BigOperators.Intervals

/-!
Sums over a row-major array, regrouped.  A reshape permutes the entries, so it keeps the total; an array whose
leading extent is `n * b` is the disjoint union of `n` blocks of `b` leading rows, so its total is the sum of
the block totals; and an accumulator that starts at zero and adds the block totals in order ends at their sum.
-/

noncomputable section

open scoped BigOperators

namespace Cert.BlockSums

open Idealize.ShloMosaic Idealize.ShloMosaic.ValueIdx

/-! ## A reshape keeps the total -/

/-- A reshape reads the same entries in row-major order under another shape: it is the operand composed with a
    bijection of the two index sets, so the sum of all its entries is the sum of all the operand's entries. -/
theorem sum_shapeCast {M : Type} [AddCommMonoid M] {s t : Shape} (h : s.ShapeCasts t) (v : s.Idx → M) :
    ∑ j : t.Idx, shapeCast t v h j = ∑ i : s.Idx, v i := by
  unfold shapeCast
  exact Equiv.sum_comp (Shape.reshapeEquiv h) v

/-! ## An array is the disjoint union of its blocks of leading rows -/

/-- Division with remainder is unique: `b * t + r` with `r < b` determines `t` and `r`. -/
theorem block_row_unique {b t t' r r' : Nat} (hr : r < b) (hr' : r' < b) (h : b * t + r = b * t' + r') :
    t = t' ∧ r = r' := by
  have hb : 0 < b := Nat.lt_of_le_of_lt (Nat.zero_le _) hr
  have e1 : (b * t + r) / b = t := by
    rw [Nat.mul_add_div hb, Nat.div_eq_of_lt hr, Nat.add_zero]
  have e2 : (b * t' + r') / b = t' := by
    rw [Nat.mul_add_div hb, Nat.div_eq_of_lt hr', Nat.add_zero]
  have ht : t = t' := by rw [← e1, ← e2, h]
  subst ht
  exact ⟨rfl, Nat.add_left_cancel h⟩

/-- An array of shape `[N, c, d, e]` with `N = n * b`, cut into `n` blocks of `b` consecutive leading rows.
    Whatever maps `emb t` place block `t`'s index set `[b, c, d, e]` into the array's, as long as they send
    `(r, x, y, z)` to `(b * t + r, x, y, z)`, every index of the array is `emb t y` for exactly one block `t` and
    one index `y` of the block; so the sum over the array is the sum over the blocks of the sums over each block. -/
theorem sum_leading_blocks_of_eq {M : Type*} [AddCommMonoid M] {N n b c d e : Nat} (hN : N = n * b)
    (emb : Fin n → (⟨4, ![b, c, d, e]⟩ : Shape).Idx → (⟨4, ![N, c, d, e]⟩ : Shape).Idx)
    (h0 : ∀ t y, ((emb t y) 0 : Nat) = b * t.val + (y 0 : Nat))
    (h1 : ∀ t y, ((emb t y) 1 : Nat) = (y 1 : Nat))
    (h2 : ∀ t y, ((emb t y) 2 : Nat) = (y 2 : Nat))
    (h3 : ∀ t y, ((emb t y) 3 : Nat) = (y 3 : Nat))
    (f : (⟨4, ![N, c, d, e]⟩ : Shape).Idx → M) :
    ∑ i, f i = ∑ t : Fin n, ∑ y, f (emb t y) := by
  subst hN
  have hbij : Function.Bijective
      (fun p : Fin n × (⟨4, ![b, c, d, e]⟩ : Shape).Idx => emb p.1 p.2) := by
    constructor
    · rintro ⟨t, y⟩ ⟨t', y'⟩ hp
      have hp : emb t y = emb t' y' := hp
      have k0 : b * t.val + (y 0 : Nat) = b * t'.val + (y' 0 : Nat) := by rw [← h0, ← h0, hp]
      have k1 : (y 1 : Nat) = (y' 1 : Nat) := by rw [← h1 t y, ← h1 t' y', hp]
      have k2 : (y 2 : Nat) = (y' 2 : Nat) := by rw [← h2 t y, ← h2 t' y', hp]
      have k3 : (y 3 : Nat) = (y' 3 : Nat) := by rw [← h3 t y, ← h3 t' y', hp]
      obtain ⟨kt, kr⟩ := block_row_unique (show (y 0 : Nat) < b from (y 0).isLt)
        (show (y' 0 : Nat) < b from (y' 0).isLt) k0
      have ey : y = y' := by
        funext a
        match a with
        | ⟨0, _⟩ => exact Fin.ext kr
        | ⟨1, _⟩ => exact Fin.ext k1
        | ⟨2, _⟩ => exact Fin.ext k2
        | ⟨3, _⟩ => exact Fin.ext k3
      rw [Fin.ext kt, ey]
    · intro i
      have hi : (i 0 : Nat) < n * b := (i 0).isLt
      have hb : 0 < b := by
        rcases Nat.eq_zero_or_pos b with hb | hb
        · subst hb; simp at hi
        · exact hb
      have ht : (i 0 : Nat) / b < n := (Nat.div_lt_iff_lt_mul hb).2 hi
      refine ⟨(⟨(i 0 : Nat) / b, ht⟩, ix4 ⟨(i 0 : Nat) % b, Nat.mod_lt _ hb⟩ (i 1) (i 2) (i 3)), ?_⟩
      funext a
      match a with
      | ⟨0, _⟩ => exact Fin.ext ((h0 _ _).trans (Nat.div_add_mod _ _))
      | ⟨1, _⟩ => exact Fin.ext (h1 _ _)
      | ⟨2, _⟩ => exact Fin.ext (h2 _ _)
      | ⟨3, _⟩ => exact Fin.ext (h3 _ _)
  rw [← Fintype.sum_prod_type (f := fun p : Fin n × (⟨4, ![b, c, d, e]⟩ : Shape).Idx => f (emb p.1 p.2))]
  exact (Fintype.sum_bijective _ hbij _ _ (fun _ => rfl)).symm

/-- The same with the array's leading extent written as the product `n * b` itself. -/
theorem sum_leading_blocks {M : Type*} [AddCommMonoid M] {n b c d e : Nat}
    (emb : Fin n → (⟨4, ![b, c, d, e]⟩ : Shape).Idx → (⟨4, ![n * b, c, d, e]⟩ : Shape).Idx)
    (h0 : ∀ t y, ((emb t y) 0 : Nat) = b * t.val + (y 0 : Nat))
    (h1 : ∀ t y, ((emb t y) 1 : Nat) = (y 1 : Nat))
    (h2 : ∀ t y, ((emb t y) 2 : Nat) = (y 2 : Nat))
    (h3 : ∀ t y, ((emb t y) 3 : Nat) = (y 3 : Nat))
    (f : (⟨4, ![n * b, c, d, e]⟩ : Shape).Idx → M) :
    ∑ i, f i = ∑ t : Fin n, ∑ y, f (emb t y) :=
  sum_leading_blocks_of_eq rfl emb h0 h1 h2 h3 f

/-! ## An accumulator that adds the block totals in order -/

/-- The accumulator after step `k`: it starts at zero, step `0` adds `p 0`, and each later step `k + 1` adds
    `p (k + 1)` to what step `k` left. -/
def chainSum {M : Type*} [AddCommMonoid M] (p : Nat → M) : Nat → M
  | 0 => 0 + p 0
  | (k + 1) => chainSum p k + p (k + 1)

/-- After step `k` the accumulator holds the sum of `p 0, …, p k`. -/
theorem chainSum_eq {M : Type*} [AddCommMonoid M] (p : Nat → M) (k : Nat) :
    chainSum p k = ∑ t ∈ Finset.range (k + 1), p t := by
  induction k with
  | zero => simp [chainSum]
  | succ k ih => rw [chainSum, ih, Finset.sum_range_succ (fun t => p t) (k + 1)]

/-- A sum over the first `n` naturals is the sum over `Fin n` of the values at the underlying naturals. -/
theorem sum_range_eq_sum_fin {M : Type*} [AddCommMonoid M] (p : Nat → M) (n : Nat) :
    ∑ t ∈ Finset.range n, p t = ∑ t : Fin n, p t.val :=
  Finset.sum_range p

/-- So after its last step `k` an accumulator over `n = k + 1` blocks holds the sum over `Fin n`. -/
theorem chainSum_eq_sum_fin {M : Type*} [AddCommMonoid M] (p : Nat → M) {n k : Nat} (hn : n = k + 1) :
    chainSum p k = ∑ t : Fin n, p t.val := by
  subst hn
  rw [chainSum_eq, sum_range_eq_sum_fin]

end Cert.BlockSums

end
-- ==== Proof.KernelIdeal.BlockValue.lean ====
import proofs.«169952_j75771813036236_1_alg».proof.Proof.Gen.KernelIdeal.Skeleton
import proofs.«169952_j75771813036236_1_alg».proof.Proof.LibBlockSums
import Idealize.ShloMosaic.Lib.ValueIdx
import Idealize.ShloMosaic.Lib.Pipeline.Value
import Idealize.ShloMosaic.Lib.ValueLayout
import Idealize.ShloMosaic.PureOps.Ideal.Laws

/-!
The value one grid step of the kernel stores, over the extended reals.  The step's arithmetic on its blocks
`g, t : [8,3,256,256]`, mask block `m : [8,256,256]` and the accumulator's old value is: the accumulator plus the sum,
over every index `y` of the block, of `|g y - t y|` times the mask at `(y 0, y 2, y 3)`.  The first step stores zero.
-/

noncomputable section

open scoped BigOperators

namespace Cert.KernelIdeal.BlockValue

open Idealize.ShloMosaic Idealize.ShloMosaic.ValueIdx Cert.KernelIdeal Cert.KernelIdeal.Gen

/-- A rank-4 index's coordinates are below the extents, each written as the extent itself. -/
theorem idx4_lt0 {n0 n1 n2 n3 : Nat} (j : (⟨4, ![n0, n1, n2, n3]⟩ : Shape).Idx) : (j 0).val < n0 := (j 0).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-- The mask index under a block index `y = (y0, y1, y2, y3)`: the channel coordinate dropped, `(y0, y2, y3)`. -/
def maskIdx (y : S8x3x256x256.Idx) : S8x256x256.Idx :=
  ix3 (⟨(y 0).val, idx4_lt0 y⟩ : Fin 8) (⟨(y 2).val, idx4_lt2 y⟩ : Fin 256) (⟨(y 3).val, idx4_lt3 y⟩ : Fin 256)

/-- Its coordinates. -/
theorem maskIdx_val0 (y : S8x3x256x256.Idx) : (maskIdx y 0).val = (y 0).val := rfl
theorem maskIdx_val1 (y : S8x3x256x256.Idx) : (maskIdx y 1).val = (y 2).val := rfl
theorem maskIdx_val2 (y : S8x3x256x256.Idx) : (maskIdx y 2).val = (y 3).val := rfl

/-- The mask block `[8,256,256]`, recast to its own shape, given a unit second axis `[8,1,256,256]` and broadcast
    along it to `[8,3,256,256]`, read at `y = (y0, y1, y2, y3)`, is the mask block at `(y0, y2, y3)`: the broadcast
    ignores the channel coordinate `y1`, and the added unit axis does not move the row-major position. -/
theorem mask_broadcast_apply {α : Type} (m : S8x256x256.Idx → α) (y : S8x3x256x256.Idx) :
    broadcastTo S8x3x256x256
        (shapeCast S8x1x256x256 (shapeCast S8x256x256 m shapeCasts_S8x256x256_S8x256x256)
          shapeCasts_S8x256x256_S8x1x256x256)
        broadcasts_S8x1x256x256_S8x3x256x256 y
      = m (maskIdx y) := by
  rw [shapeCast_self]
  refine (broadcastTo_apply _ _ y
    (ix4 (⟨(y 0).val, idx4_lt0 y⟩ : Fin 8) (⟨0, Nat.one_pos⟩ : Fin 1) (⟨(y 2).val, idx4_lt2 y⟩ : Fin 256)
      (⟨(y 3).val, idx4_lt3 y⟩ : Fin 256)) (fun a => ?_)).trans ?_
  · match a with
    | ⟨0, _⟩ => rfl
    | ⟨1, _⟩ => rfl
    | ⟨2, _⟩ => rfl
    | ⟨3, _⟩ => rfl
  · refine shapeCast_apply m _ _ _ ?_
    rw [Shape.rowMajor_val_three, Shape.rowMajor_val_four]
    show ((y 0).val * 256 + (y 2).val) * 256 + (y 3).val
      = (((y 0).val * 1 + 0) * 256 + (y 2).val) * 256 + (y 3).val
    rw [Nat.mul_one, Nat.add_zero]

/-- A sum of a vector and a broadcast scalar, read at an index. -/
theorem addf_broadcast_apply {s : Shape} {φ : FTy} (a : FVec Ideal s φ) (r : Ideal φ) (j : s.Idx) :
    addf a (broadcast s r) j = a j + r := rfl

/-- The block's reduction: a `[8,3,256,256]` vector viewed `[1,8,3,256,256]`, summed over its last four axes into the
    one-element shape `[1]`, viewed `[1,1,1,1,1]` and read at its one index, is the sum of every entry of the vector.
    (The reduction into a shape with one index is the total sum; the views only re-index.) -/
theorem reduce_block_total (v : FVec Ideal S8x3x256x256 .f32) :
    extractAt ![0, 0, 0, 0, 0]
        (shapeCast S1x1x1x1x1
          (multiReduction (F := Ideal) .add [1, 2, 3, 4] S1
            (shapeCast S1x8x3x256x256 v shapeCasts_S8x3x256x256_S1x8x3x256x256)
            0x00000000#32 reduces_S1x8x3x256x256_S1 (.inl rfl) rfl)
          shapeCasts_S1_S1x1x1x1x1)
        inpos_S1x1x1x1x1_p0_0_0_0_0
      = ∑ y : S8x3x256x256.Idx, v y := by
  have hone : ∀ b, S1.size b = 1 := fun b => by fin_cases b; rfl
  refine Eq.trans ?_ (Cert.BlockSums.sum_shapeCast shapeCasts_S8x3x256x256_S1x8x3x256x256 v)
  exact Ideal.multiReduction_add_total (shapeCast S1x8x3x256x256 v shapeCasts_S8x3x256x256_S1x8x3x256x256)
    0x00000000#32 reduces_S1x8x3x256x256_S1 hone (.inl rfl) rfl
    (Shape.reshapeEquiv shapeCasts_S1_S1x1x1x1x1 fun a => ⟨![0, 0, 0, 0, 0] a, inpos_S1x1x1x1x1_p0_0_0_0_0 a⟩)

/-- The step's stored value as one expression in the vector operations (the generated definition, its intermediate
    names substituted). -/
theorem pay2_eq (x0 x1 : Vec Ideal S8x3x256x256 .f32) (x2 : Vec Ideal S8x256x256 .f32) (xo : Vec Ideal S1x1 .f32) :
    k0_pay2 (F := Ideal) x0 x1 x2 xo
      = addf (shapeCast S1x1 xo shapeCasts_S1x1_S1x1)
          (broadcast S1x1
            (extractAt ![0, 0, 0, 0, 0]
              (shapeCast S1x1x1x1x1
                (multiReduction (F := Ideal) .add [1, 2, 3, 4] S1
                  (shapeCast S1x8x3x256x256
                    (mulf (absf (subf x0 x1))
                      (broadcastTo S8x3x256x256
                        (shapeCast S8x1x256x256 (shapeCast S8x256x256 x2 shapeCasts_S8x256x256_S8x256x256)
                          shapeCasts_S8x256x256_S8x1x256x256)
                        broadcasts_S8x1x256x256_S8x3x256x256))
                    shapeCasts_S8x3x256x256_S1x8x3x256x256)
                  0x00000000#32 reduces_S1x8x3x256x256_S1 (.inl rfl) rfl)
                shapeCasts_S1_S1x1x1x1x1)
              inpos_S1x1x1x1x1_p0_0_0_0_0)) := rfl

/-- THE STEP'S STORED VALUE: the accumulator's old value plus the block's masked sum of absolute differences.  The
    reduction into the one-element shape is the sum over every index of its operand, the reshapes before and after it
    only re-index (so keep the total and the one entry), and the broadcast mask reads as above. -/
theorem pay2_apply (x0 x1 : Vec Ideal S8x3x256x256 .f32) (x2 : Vec Ideal S8x256x256 .f32) (xo : Vec Ideal S1x1 .f32)
    (j : S1x1.Idx) :
    k0_pay2 (F := Ideal) x0 x1 x2 xo j
      = xo j + ∑ y : S8x3x256x256.Idx, (absf (subf x0 x1) : FVec Ideal S8x3x256x256 .f32) y * x2 (maskIdx y) := by
  rw [pay2_eq, addf_broadcast_apply, shapeCast_self xo, reduce_block_total]
  refine congrArg (xo j + ·) (Finset.sum_congr rfl fun y _ => ?_)
  rw [mulf_apply, mask_broadcast_apply]

/-- THE FIRST STEP'S STORED VALUE: the zero block. -/
theorem pay1_apply (j : S1x1.Idx) : k0_pay1 (F := Ideal) j = 0 := by
  exact Ideal.ofBits_zero_f32

end Cert.KernelIdeal.BlockValue

end
-- ==== Proof.LibMaskedDifference.lean ====
import Idealize.ShloMosaic.Lib.ValueIdx
import Idealize.ShloMosaic.PureOps.Ideal.Laws

/-!
An absolute difference times a zero-or-one mask, over the extended reals.  Multiplying `|g - t|` by the mask equals
replacing `g` and `t` by one common real value wherever the mask is zero and then taking the absolute difference:
where the mask is one both are `|g - t|`; where it is zero the product is `|g - t| * 0 = 0` and the other side is
`|r - r| = 0`.  No finiteness of `g` or `t` is needed, since `x * 0 = 0` for every extended real.
-/

noncomputable section

namespace Cert.MaskedDifference

open Idealize.ShloMosaic Idealize.ShloMosaic.ValueIdx

/-! ## The operations read at an index (all definitional) -/

section AtIndex
variable {s : Shape} {φ : FTy}

/-- An absolute value at an index is `max x (-x)` of the element. -/
theorem absf_apply (a : FVec Ideal s φ) (i : s.Idx) : absf a i = max (a i) (-(a i)) := rfl
/-- The reference's absolute value at an index is the same `max x (-x)` of the element. -/
theorem hostAbsf_apply (a : FVec Ideal s φ) (i : s.Idx) : Host.absf a i = max (a i) (-(a i)) := rfl
/-- Over the extended reals the two absolute values are one function. -/
theorem hostAbsf_eq_absf (a : FVec Ideal s φ) : Host.absf a = absf a := rfl
/-- An unsigned-integer-to-float conversion at an index is the element's natural number, as a real. -/
theorem uitofp_apply {w : Nat} (x : IVec s w) (i : s.Idx) :
    (uitofp φ x : FVec Ideal s φ) i = (((x i).toNat : ℝ) : EReal) := rfl

end AtIndex

/-! ## One element -/

/-- A real minus itself is zero, also inside the extended reals (where `⊤ - ⊤` is not). -/
theorem coe_sub_self (r : ℝ) : (r : EReal) - (r : EReal) = 0 := by
  rw [← EReal.coe_sub, sub_self, EReal.coe_zero]

/-- THE MASKED ABSOLUTE DIFFERENCE, one element.  `a` is the mask bit, `g` and `t` any extended reals, and the fill
    word `w` denotes a real.  Left: `|g - t|` times the bit read as a number.  Right: `|g' - t'|` where `g'`, `t'` are
    `g`, `t` if the bit is one and both the fill value if it is zero. -/
theorem masked_absdiff (a : BitVec 1) (g t : EReal) (w : BitVec 32)
    (hw : ∃ r : ℝ, Ideal.ofBits .f32 w = (r : EReal)) :
    max (g - t) (-(g - t)) * (((a.toNat : ℝ) : EReal)) =
      max (Scalar.select a g (Ideal.ofBits .f32 w) - Scalar.select a t (Ideal.ofBits .f32 w))
        (-(Scalar.select a g (Ideal.ofBits .f32 w) - Scalar.select a t (Ideal.ofBits .f32 w))) := by
  obtain ⟨r, hr⟩ := hw
  rcases BitVec.eq_zero_or_eq_one a with h | h <;> subst h
  · rw [select_zero, select_zero, hr, coe_sub_self]
    simp
  · rw [select_one, select_one]
    simp

/-! ## Whole vectors, at an index -/

/-- The same for vectors: the product of the absolute difference with the converted mask, read at `i`, is the
    reference's absolute difference of the two selects against the constant fill, read at `i`. -/
theorem masked_absdiff_vec {s : Shape} (G T : FVec Ideal s .f32) (B : IVec s 1) (w : BitVec 32)
    (hw : ∃ r : ℝ, Ideal.ofBits .f32 w = (r : EReal)) (i : s.Idx) :
    mulf (absf (subf G T)) (uitofp .f32 B) i =
      Host.absf (subf (select B G (constant s .f32 w)) (select B T (constant s .f32 w))) i :=
  masked_absdiff (B i) (G i) (T i) w hw

/-! ## Two words -/

/-- The word of `255.0` denotes the real `255`. -/
theorem ofBits_255 : Ideal.ofBits .f32 0x437F0000#32 = ((255 : ℝ) : EReal) := by
  simp [Ideal.ofBits, Ideal.ieee, -EReal.coe_mul]; norm_num

/-- So the fill word `255.0` denotes a real. -/
theorem fill_255_real : ∃ r : ℝ, Ideal.ofBits .f32 0x437F0000#32 = (r : EReal) := ⟨255, ofBits_255⟩

/-- The word of `+0.0` denotes `0`. -/
theorem zero_word : Ideal.ofBits .f32 0x00000000#32 = 0 := Ideal.ofBits_zero_f32

end Cert.MaskedDifference

end
-- ==== Proof.KernelIdeal.Total.lean ====
/-
  The kernel's accumulated value is one sum over the whole array.

  At the exact instance each grid point adds to the 1x1 accumulator the sum, over the point's block of eight
  leading rows, of |gen - tar| times the f32 mask at the index with the channel coordinate dropped. A block's
  element sits in its array at "block number times eight plus the row inside the block" on the leading axis and at
  its own coordinate on the others, for each of the three input windows alike; so a block's contribution is the sum
  of ONE whole-array summand over the images of the block's indices, the accumulator after the last point is the
  sum of the eight contributions in order from zero, and the eight blocks' images partition the array's index set:
  the accumulated value is the summand's sum over the whole array.
-/
import proofs.«169952_j75771813036236_1_alg».proof.Proof.KernelIdeal.Value
import proofs.«169952_j75771813036236_1_alg».proof.Proof.KernelIdeal.BlockValue
import proofs.«169952_j75771813036236_1_alg».proof.Proof.LibBlockSums
import proofs.«169952_j75771813036236_1_alg».proof.Proof.LibMaskedDifference

set_option maxRecDepth 16384

noncomputable section

open scoped BigOperators

namespace Cert.KernelIdeal.Acc

open Cert.KernelIdeal Cert.KernelIdeal.Gen Cert.KernelIdeal.BlockValue
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## Where a block's element sits -/

/-- The array index of element `y` of the first image window's block at point `t`. -/
def E0 (t : Fin cfg0.N) (y : S8x3x256x256.Idx) : S64x3x256x256.Idx := ((cfg0.win 0).blk t).view.emb y
/-- The same for the second image window, -/
def E1 (t : Fin cfg0.N) (y : S8x3x256x256.Idx) : S64x3x256x256.Idx := ((cfg0.win 1).blk t).view.emb y
/-- and for the mask window. -/
def E2 (t : Fin cfg0.N) (z : S8x256x256.Idx) : S64x256x256.Idx := ((cfg0.win 2).blk t).view.emb z

/-- Each input window's block index is the point's number on the leading axis and zero on the others. -/
theorem idx0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, win0_0.index t (0 : Fin 4) = t.val ∧ win0_0.index t (1 : Fin 4) = 0 ∧ win0_0.index t (2 : Fin 4) = 0 ∧ win0_0.index t (3 : Fin 4) = 0)
theorem idx1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, win0_1.index t (0 : Fin 4) = t.val ∧ win0_1.index t (1 : Fin 4) = 0 ∧ win0_1.index t (2 : Fin 4) = 0 ∧ win0_1.index t (3 : Fin 4) = 0)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)

theorem E0_val0 (t : Fin cfg0.N) (y : S8x3x256x256.Idx) : ((E0 t y) 0 : Nat) = 8 * t.val + (y 0 : Nat) := by
  show win0_0.index t 0 * 8 + 1 * (y 0).val = _
  rw [(idx0 t).1]; omega
theorem E0_val1 (t : Fin cfg0.N) (y : S8x3x256x256.Idx) : ((E0 t y) 1 : Nat) = (y 1 : Nat) := by
  show win0_0.index t 1 * 3 + 1 * (y 1).val = _
  rw [(idx0 t).2.1]; omega
theorem E0_val2 (t : Fin cfg0.N) (y : S8x3x256x256.Idx) : ((E0 t y) 2 : Nat) = (y 2 : Nat) := by
  show win0_0.index t 2 * 256 + 1 * (y 2).val = _
  rw [(idx0 t).2.2.1]; omega
theorem E0_val3 (t : Fin cfg0.N) (y : S8x3x256x256.Idx) : ((E0 t y) 3 : Nat) = (y 3 : Nat) := by
  show win0_0.index t 3 * 256 + 1 * (y 3).val = _
  rw [(idx0 t).2.2.2]; omega

/-- The two image windows' blocks sit at the same place. -/
theorem E1_eq (t : Fin cfg0.N) (y : S8x3x256x256.Idx) : E1 t y = E0 t y := by
  funext a
  refine Fin.ext ?_
  match a with
  | ⟨0, _⟩ => show win0_1.index t 0 * 8 + 1 * (y 0).val = win0_0.index t 0 * 8 + 1 * (y 0).val
              rw [(idx1 t).1, (idx0 t).1]
  | ⟨1, _⟩ => show win0_1.index t 1 * 3 + 1 * (y 1).val = win0_0.index t 1 * 3 + 1 * (y 1).val
              rw [(idx1 t).2.1, (idx0 t).2.1]
  | ⟨2, _⟩ => show win0_1.index t 2 * 256 + 1 * (y 2).val = win0_0.index t 2 * 256 + 1 * (y 2).val
              rw [(idx1 t).2.2.1, (idx0 t).2.2.1]
  | ⟨3, _⟩ => show win0_1.index t 3 * 256 + 1 * (y 3).val = win0_0.index t 3 * 256 + 1 * (y 3).val
              rw [(idx1 t).2.2.2, (idx0 t).2.2.2]

/-- An array index with its channel coordinate dropped: where the mask is read. -/
def dropChannel (i : S64x3x256x256.Idx) : S64x256x256.Idx :=
  ix3 (⟨(i 0).val, (i 0).isLt⟩ : Fin 64) (⟨(i 2).val, (i 2).isLt⟩ : Fin 256) (⟨(i 3).val, (i 3).isLt⟩ : Fin 256)

/-- The mask window's block element under a block index is the array index's, channel dropped. -/
theorem E2_eq (t : Fin cfg0.N) (y : S8x3x256x256.Idx) : E2 t (maskIdx y) = dropChannel (E0 t y) := by
  funext a
  refine Fin.ext ?_
  match a with
  | ⟨0, _⟩ => show win0_2.index t 0 * 8 + 1 * (y 0).val = ((E0 t y) 0 : Nat)
              rw [E0_val0, (idx2 t).1]; omega
  | ⟨1, _⟩ => show win0_2.index t 1 * 256 + 1 * (y 2).val = ((E0 t y) 2 : Nat)
              rw [E0_val2, (idx2 t).2.1]; omega
  | ⟨2, _⟩ => show win0_2.index t 2 * 256 + 1 * (y 3).val = ((E0 t y) 3 : Nat)
              rw [E0_val3, (idx2 t).2.2]; omega

/-! ## One summand for the whole array -/

/-- The two image arrays and the f32 mask as the region finds them, and the three windows' blocks at a point,
    each at its vector type. -/
abbrev A0 (c : Dev nD) : FVec Ideal S64x3x256x256 .f32 := V m c main_arg0
abbrev A1 (c : Dev nD) : FVec Ideal S64x3x256x256 .f32 := V m c main_arg1
abbrev A2 (c : Dev nD) : FVec Ideal S64x256x256 .f32 := V m c main_v45
abbrev B0 (c : Dev nD) (t : Fin cfg0.N) : FVec Ideal S8x3x256x256 .f32 := iblk m c 0 t
abbrev B1 (c : Dev nD) (t : Fin cfg0.N) : FVec Ideal S8x3x256x256 .f32 := iblk m c 1 t
abbrev B2 (c : Dev nD) (t : Fin cfg0.N) : FVec Ideal S8x256x256 .f32 := iblk m c 2 t

/-- The summand at an array index: |gen - tar| there, times the f32 mask with the channel dropped — over the
    buffers as the region finds them. -/
def term (c : Dev nD) (i : S64x3x256x256.Idx) : EReal :=
  max ((A0 m c i : EReal) - (A1 m c i : EReal)) (-((A0 m c i : EReal) - (A1 m c i : EReal))) * (A2 m c (dropChannel i) : EReal)

/-- A block's summand at `y` is the whole-array summand at `y`'s place in the array. -/
theorem block_term (c : Dev nD) (t : Fin cfg0.N) (y : S8x3x256x256.Idx) :
    (absf (subf (B0 m c t) (B1 m c t)) : FVec Ideal S8x3x256x256 .f32) y * (B2 m c t (maskIdx y) : EReal) = term m c (E0 t y) := by
  show max ((A0 m c (E0 t y) : EReal) - (A1 m c (E1 t y) : EReal)) (-((A0 m c (E0 t y) : EReal) - (A1 m c (E1 t y) : EReal)))
      * (A2 m c (E2 t (maskIdx y)) : EReal) = _
  rw [E1_eq, E2_eq]
  rfl

/-! ## The eight contributions in order are the whole sum -/

/-- Point `k`'s contribution to the accumulator (zero past the grid). -/
def blockSum (c : Dev nD) (k : ℕ) : EReal :=
  if h : k < cfg0.N then ∑ y : S8x3x256x256.Idx, (absf (subf (B0 m c ⟨k, h⟩) (B1 m c ⟨k, h⟩)) : FVec Ideal S8x3x256x256 .f32) y * (B2 m c ⟨k, h⟩ (maskIdx y) : EReal) else 0

/-- The running value after point `n` is the contributions added in order from zero. -/
theorem chain_eq (c : Dev nD) (j : S1x1.Idx) : ∀ (n : ℕ) (h : n < cfg0.N), chain m c n h j = Cert.BlockSums.chainSum (blockSum m c) n
  | 0, h => by
    show k0_pay2 (F := Ideal) (B0 m c ⟨0, h⟩) (B1 m c ⟨0, h⟩) (B2 m c ⟨0, h⟩) (k0_pay1 (F := Ideal)) j = 0 + blockSum m c 0
    rw [pay2_apply, pay1_apply, blockSum, dif_pos h]
  | n + 1, h => by
    show k0_pay2 (F := Ideal) (B0 m c ⟨n + 1, h⟩) (B1 m c ⟨n + 1, h⟩) (B2 m c ⟨n + 1, h⟩) (chain m c n (Nat.lt_of_succ_lt h)) j
      = Cert.BlockSums.chainSum (blockSum m c) n + blockSum m c (n + 1)
    rw [pay2_apply, chain_eq c j n, blockSum, dif_pos h]

/-- THE TOTAL: the result array's one entry is the summand's sum over the whole array. -/
theorem result_total (c : Dev nD) (j : S1x1.Idx) : result m c j = ∑ i : S64x3x256x256.Idx, term m c i := by
  have hN : cfg0.N = 8 := N_0
  show chain m c 7 _ j = _
  rw [chain_eq, Cert.BlockSums.chainSum_eq_sum_fin (blockSum m c) (n := 8) rfl]
  rw [Cert.BlockSums.sum_leading_blocks_of_eq (N := 64) (n := 8) (b := 8) (c := 3) (d := 256) (e := 256) rfl
    (fun t y => E0 ⟨t.val, by rw [hN]; exact t.isLt⟩ y)
    (fun t y => E0_val0 _ y) (fun t y => E0_val1 _ y) (fun t y => E0_val2 _ y) (fun t y => E0_val3 _ y) (term m c)]
  refine Finset.sum_congr rfl fun t _ => ?_
  have ht : t.val < cfg0.N := by rw [hN]; exact t.isLt
  rw [blockSum, dif_pos ht]
  exact Finset.sum_congr rfl fun y _ => block_term m c ⟨t.val, ht⟩ y

end Cert.KernelIdeal.Acc

end
-- ==== Proof.LibChannelBroadcast.lean ====
import Idealize.ShloMosaic.Lib.ValueIdx
import Idealize.ShloMosaic.Lib.Pipeline.Value
import Idealize.ShloMosaic.Lib.IdealHost

/-!
An `[n,h,w]` array spread over a new channel axis.  Broadcasting it first to `[n,1,h,w]` (its axes sent to axes
`0, 2, 3`) and then to `[n,c,h,w]` (axis for axis, the unit axis repeated `c` times) gives the array that reads, at
`(i0, i1, i2, i3)`, the original at `(i0, i2, i3)`: the channel coordinate `i1` is ignored.
-/

noncomputable section

namespace Cert.ChannelBroadcast

open Idealize.ShloMosaic Idealize.ShloMosaic.ValueIdx

/-- A rank-4 index's coordinates are below the extents, each written as the extent itself. -/
theorem idx4_lt0 {n0 n1 n2 n3 : Nat} (j : (⟨4, ![n0, n1, n2, n3]⟩ : Shape).Idx) : (j 0).val < n0 := (j 0).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-- The index `(i0, i2, i3)` under `(i0, i1, i2, i3)`: the channel coordinate dropped. -/
def dropChannel {n c h w : Nat} (i : (⟨4, ![n, c, h, w]⟩ : Shape).Idx) : (⟨3, ![n, h, w]⟩ : Shape).Idx :=
  ix3 (⟨(i 0).val, idx4_lt0 i⟩ : Fin n) (⟨(i 2).val, idx4_lt2 i⟩ : Fin h) (⟨(i 3).val, idx4_lt3 i⟩ : Fin w)

/-- Its coordinates. -/
theorem dropChannel_val0 {n c h w : Nat} (i : (⟨4, ![n, c, h, w]⟩ : Shape).Idx) :
    (dropChannel i 0).val = (i 0).val := rfl
theorem dropChannel_val1 {n c h w : Nat} (i : (⟨4, ![n, c, h, w]⟩ : Shape).Idx) :
    (dropChannel i 1).val = (i 2).val := rfl
theorem dropChannel_val2 {n c h w : Nat} (i : (⟨4, ![n, c, h, w]⟩ : Shape).Idx) :
    (dropChannel i 2).val = (i 3).val := rfl

/-- A coordinate below the extent is what a broadcast reads on that axis: the coordinate itself, which is `0` anyway
    when the extent is one. -/
theorem val_eq_ite {x m : Nat} (hx : x < m) : x = if m = 1 then 0 else x := by
  split <;> omega

/-- THE TWO BROADCASTS READ AT AN INDEX: `[n,h,w]` to `[n,1,h,w]` along axes `0, 2, 3`, then to `[n,c,h,w]` axis for
    axis, read at `i`, is the operand at `i` with its channel coordinate dropped. -/
theorem channel_broadcast_apply {α : Type} {n c h w : Nat}
    (h1 : (⟨3, ![n, h, w]⟩ : Shape).BroadcastsInDim ⟨4, ![n, 1, h, w]⟩ ![0, 2, 3])
    (h2 : (⟨4, ![n, 1, h, w]⟩ : Shape).BroadcastsInDim ⟨4, ![n, c, h, w]⟩ ![0, 1, 2, 3])
    (b : (⟨3, ![n, h, w]⟩ : Shape).Idx → α) (i : (⟨4, ![n, c, h, w]⟩ : Shape).Idx) :
    broadcastInDim ⟨4, ![n, c, h, w]⟩ ![0, 1, 2, 3] h2 (broadcastInDim ⟨4, ![n, 1, h, w]⟩ ![0, 2, 3] h1 b) i
      = b (dropChannel i) := by
  refine (broadcastInDim_apply _ h2 _ i
    (ix4 (⟨(i 0).val, idx4_lt0 i⟩ : Fin n) (⟨0, Nat.one_pos⟩ : Fin 1) (⟨(i 2).val, idx4_lt2 i⟩ : Fin h)
      (⟨(i 3).val, idx4_lt3 i⟩ : Fin w)) (fun a => ?_)).trans ?_
  · match a with
    | ⟨0, _⟩ => exact val_eq_ite (idx4_lt0 i)
    | ⟨1, _⟩ => rfl
    | ⟨2, _⟩ => exact val_eq_ite (idx4_lt2 i)
    | ⟨3, _⟩ => exact val_eq_ite (idx4_lt3 i)
  · refine broadcastInDim_apply _ h1 b _ (dropChannel i) (fun a => ?_)
    match a with
    | ⟨0, _⟩ => exact val_eq_ite (idx4_lt0 i)
    | ⟨1, _⟩ => exact val_eq_ite (idx4_lt2 i)
    | ⟨2, _⟩ => exact val_eq_ite (idx4_lt3 i)

/-- A constant scalar broadcast to any shape reads, everywhere, the extended real its word denotes. -/
theorem fill_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]
  rfl

end Cert.ChannelBroadcast

end
-- ==== Proof.Bridge.lean ====
/-
  The kernel's result is the reference's.

  Both programs end by dividing a one-entry array by the same constant. The kernel's entry is the sum over the
  whole [64,3,256,256] index of |gen - tar| times the f32 mask with the channel dropped; the reference's is zero
  plus the sum over the same index of |where(mask, gen, 255) - where(mask, tar, 255)|, its mask spread over the
  channel axis by two broadcasts. Index by index the two summands are equal: where the mask bit is one both are
  |gen - tar|, where it is zero the kernel's is |gen - tar| * 0 = 0 and the reference's |255 - 255| = 0 — with no
  finiteness assumption, since x * 0 = 0 for every extended real.
-/
import proofs.«169952_j75771813036236_1_alg».proof.Proof.KernelIdeal.Total
import proofs.«169952_j75771813036236_1_alg».proof.Proof.RefRun
import proofs.«169952_j75771813036236_1_alg».proof.Proof.LibMaskedDifference
import proofs.«169952_j75771813036236_1_alg».proof.Proof.LibChannelBroadcast
import Idealize.ShloMosaic.Lib.IdealHost
import Idealize.ShloMosaic.Lib.KernelVsHost

set_option maxRecDepth 16384

noncomputable section

open scoped BigOperators

namespace Cert.Proof.Bridge

open Idealize.ShloMosaic Idealize.ShloMosaic.TcCoe Idealize.ShloMosaic.ValueIdx
open Idealize.SL.Sem
open Cert.KernelIdeal.Acc

/-- The kernel's way of dropping the channel coordinate is the library file's. -/
theorem dropChannel_eq (i : Cert.KernelIdeal.S64x3x256x256.Idx) :
    Cert.KernelIdeal.Acc.dropChannel i = Cert.ChannelBroadcast.dropChannel i := rfl

/-- THE BRIDGE: from image arrays that agree, and the kernel's f32 mask the reference's mask as 0.0 / 1.0, the
    kernel's result is the reference's result term. -/
theorem out_agree
    (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ)
    (c : Dev Cert.KernelIdeal.nD)
    (h0 : mR ((c.tc : Thread Cert.ReferenceIdeal.nD Cert.ReferenceIdeal.τ).loc Cert.ReferenceIdeal.main_arg0)
        = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1)
        = mK ((c.tc : Thread Cert.KernelIdeal.nD Cert.KernelIdeal.τ).loc Cert.KernelIdeal.main_arg1))
    (hmask : Cert.KernelIdeal.Acc.V mK c Cert.KernelIdeal.main_v45
        = uitofp (F := Ideal) .f32 (Cert.ReferenceIdeal.RefRun.maskVal mR c)) :
    Cert.KernelIdeal.Acc.kernelOut mK c
      = Cert.ReferenceIdeal.RefRun.refOut
          (mR ((c.tc : Thread Cert.ReferenceIdeal.nD Cert.ReferenceIdeal.τ).loc Cert.ReferenceIdeal.main_arg0))
          (mR ((c.tc : Thread Cert.ReferenceIdeal.nD Cert.ReferenceIdeal.τ).loc Cert.ReferenceIdeal.main_arg1))
          (Cert.ReferenceIdeal.RefRun.maskVal mR c) := by
  rw [h0, h1]
  generalize Cert.ReferenceIdeal.RefRun.maskVal mR c = b at hmask ⊢
  unfold Cert.KernelIdeal.Acc.kernelOut Cert.ReferenceIdeal.RefRun.refOut
  refine congrArg (fun X => Host.divf (F := Ideal) X (constant (F := Ideal) Cert.KernelIdeal.S_ .f32 0x4B400000#32)) ?_
  funext i
  have e1 : (Cert.KernelIdeal.S1x1.rowMajor (ix2 (0 : Fin 1) (0 : Fin 1))).val = (Cert.KernelIdeal.S_.rowMajor i).val := by
    rw [Shape.rowMajor_val_two]
    exact (Shape.rowMajorPi_zero _ _).symm
  rw [shapeCast_apply (result mK c) _ i (ix2 (0 : Fin 1) (0 : Fin 1)) e1, result_total]
  refine Eq.trans ?_ (Ideal.hostReduceAdd_total _ (fun b => b.elim0) _ _ _).symm
  rw [constant_apply, Cert.MaskedDifference.zero_word, zero_add]
  refine Finset.sum_congr rfl fun k _ => ?_
  have hBB := Cert.ChannelBroadcast.channel_broadcast_apply Cert.ReferenceIdeal.Gen.bcast_S64x256x256_S64x1x256x256_0_2_3
    Cert.ReferenceIdeal.Gen.bcast_S64x1x256x256_S64x3x256x256_0_1_2_3 b k
  have hCC := Cert.ChannelBroadcast.fill_apply Cert.ReferenceIdeal.Gen.bcast_S_S64x3x256x256 0x437F0000#32 k
  rw [Cert.MaskedDifference.hostAbsf_apply, subf_apply, select_apply, select_apply, hBB, hCC]
  simp only [Cert.KernelIdeal.Acc.term, Cert.KernelIdeal.Acc.A0, Cert.KernelIdeal.Acc.A1, Cert.KernelIdeal.Acc.A2]
  rw [hmask, Cert.KernelIdeal.Acc.V_main_arg0, Cert.KernelIdeal.Acc.V_main_arg1]
  exact Cert.MaskedDifference.masked_absdiff (b (Cert.ChannelBroadcast.dropChannel k)) _ _ 0x437F0000#32 Cert.MaskedDifference.fill_255_real

end Cert.Proof.Bridge

end
-- ==== Proof.lean ====
/-
  The certificate of the landmark-masked L1 loss: a Pallas kernel that streams two [64,3,256,256] images and a
  [64,256,256] landmark mask through eight grid points, accumulating sum(|gen - tar| * mask) into a 1x1 output, and
  divides by the element count, against jnp's mean(|where(mask, gen, 255) - where(mask, tar, 255)|).

  The three frames. The kernel's @main is host operations, one region, host operations; its frame is proved once for
  any float instance (the body at the first point and at a later point run symbolically, the accumulation defined by
  recursion on the point, the launch theorem for a region between host lines) and used at the word-level instance and
  at the exact one. The reference is a straight line of host operations; its frame is its run with the result dropped.

  preserves. The idealization rewrote nothing: the claim is True.

  algebraic. At the exact instance the kernel's result is (sum over the whole array of |gen - tar| * mask) / count:
  each point's contribution is a sum over its block, the accumulator adds them in order from zero, and the eight
  blocks partition the array. The reference's is (0 + sum over the whole array of |where - where|) / count. The two
  programs build the mask by the same host operations, and the summands agree index by index — a mask bit of one
  gives |gen - tar| on both sides, a bit of zero gives |gen - tar| * 0 = 0 against |255 - 255| = 0 — so the two
  results are one extended real. No finiteness of the inputs is used.
-/
import proofs.«169952_j75771813036236_1_alg».proof.Defs
import proofs.«169952_j75771813036236_1_alg».proof.Proof.Gen.Kernel
import proofs.«169952_j75771813036236_1_alg».proof.Proof.Gen.KernelIdeal
import proofs.«169952_j75771813036236_1_alg».proof.Proof.Gen.ReferenceIdeal
import proofs.«169952_j75771813036236_1_alg».proof.Proof.Gen.Pre_finite_inputs
import proofs.«169952_j75771813036236_1_alg».proof.Proof.Kernel.Frame
import proofs.«169952_j75771813036236_1_alg».proof.Proof.Masks
import proofs.«169952_j75771813036236_1_alg».proof.Proof.Bridge
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Acc.frame m ρ

/-- So does the kernel at the exact instance. -/
theorem frame_ki : Cert.frame_KernelIdeal := fun m ρ _ => Cert.KernelIdeal.Acc.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs run, the kernel's result at its accumulated-and-divided
    value, the reference's at its own term; the two are equal by the bridge, the masks by the shared host prefix. -/
theorem algebraic : Cert.algebraic_KernelIdeal_ReferenceIdeal := by
  intro m ρ m' ρ' _ hagree
  refine ⟨fun c => Cert.KernelIdeal.Acc.kernelOut m c, Cert.KernelIdeal.Acc.run (F := Ideal) m ρ, ?_⟩
  refine (θ_run Cert.ReferenceIdeal.defs _ _).mono (fun _ h c => ⟨(h c).1.trans ?_, (h c).2⟩)
    (Cert.ReferenceIdeal.RefRun.run (F := Ideal) m' ρ')
  exact (Cert.Proof.Bridge.out_agree m m' c (hagree c).1 (hagree c).2.1
    (Cert.Proof.Masks.masks_agree m m' c (hagree c).2.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
